-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S2x8192x100 : S_.BroadcastsInDim S2x8192x100 (![] : Fin 0 → Fin S2x8192x100.rank)
  reducesTo_S2x8192x100_S_d0_1_2 : S2x8192x100.ReducesTo [0, 1, 2] S_

variable [Facts]

def fn_part1 {F : FTy → Type} [FloatOps F] (main_v13 : IVec S_ 1) (main_v16 : IVec S2x8192x100 1) : IVec S_ 1 :=
  let main_c_5 : IVec S_ 1 := constantI S_ 1 1#1
  let main_v17 : IVec S_ 1 := (fun x v => Host.reduce IntOp.andi x v reducesTo_S2x8192x100_S_d0_1_2 h_S_) main_v16 main_c_5
  let main_v18 : IVec S_ 1 := andi main_v13 main_v17
  main_v18

def fn {F : FTy → Type} [FloatOps F] (main_arg0 : FVec F S512x256 .f32) (main_arg1 : FVec F S8192x2048 .f32) (main_arg2 : FVec F S8192x8192 .f32) (main_arg3 : FVec F S2x8192x100 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S2x8192x100 .f32 := Host.absf main_arg3
  let main_cst_4 : FVec F S_ .f32 := constant S_ .f32 0x7F800000#32
  let main_v15 : FVec F S2x8192x100 .f32 := broadcastInDim S2x8192x100 ![] bcast_S_S2x8192x100 main_cst_4
  let main_v16 : IVec S2x8192x100 1 := cmpf .olt main_v14 main_v15
  fn_part1 (F := F) main_v13 main_v16
-- ==== Kernel.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩
abbrev S512x256x1 : Shape := ⟨3, ![512, 256, 1]⟩
abbrev S8 : Shape := ⟨1, ![8]⟩
abbrev S1x1x8 : Shape := ⟨3, ![1, 1, 8]⟩
abbrev S512x256x8 : Shape := ⟨3, ![512, 256, 8]⟩
abbrev S512x2048 : Shape := ⟨2, ![512, 2048]⟩
abbrev S512x8192 : Shape := ⟨2, ![512, 8192]⟩
abbrev S1024x2048 : Shape := ⟨2, ![1024, 2048]⟩
abbrev S512x1024 : Shape := ⟨2, ![512, 1024]⟩
abbrev S2048x1024 : Shape := ⟨2, ![2048, 1024]⟩
abbrev S512x100 : Shape := ⟨2, ![512, 100]⟩
abbrev S256x8192 : Shape := ⟨2, ![256, 8192]⟩
abbrev S2x256x100 : Shape := ⟨3, ![2, 256, 100]⟩
abbrev S256x100 : Shape := ⟨2, ![256, 100]⟩
abbrev S8192x256 : Shape := ⟨2, ![8192, 256]⟩
abbrev S256x256 : Shape := ⟨2, ![256, 256]⟩
abbrev S1x256x100 : Shape := ⟨3, ![1, 256, 100]⟩

abbrev nBuf : Space → Nat
  | .hbm => 41
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S8192x2048, .f32⟩
  | .hbm, ⟨2, _⟩ => ⟨S8192x8192, .f32⟩
  | .hbm, ⟨3, _⟩ => ⟨S2x8192x100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .i32⟩
  | .hbm, ⟨23, _⟩ => ⟨S_, .i32⟩
  | .hbm, ⟨24, _⟩ => ⟨S512x256, .i32⟩
  | .hbm, ⟨25, _⟩ => ⟨S512x256, .i32⟩
  | .hbm, ⟨26, _⟩ => ⟨S512x256, .i32⟩
  | .hbm, ⟨27, _⟩ => ⟨S512x256x1, .i32⟩
  | .hbm, ⟨28, _⟩ => ⟨S8, .i32⟩
  | .hbm, ⟨29, _⟩ => ⟨S1x1x8, .i32⟩
  | .hbm, ⟨30, _⟩ => ⟨S512x256x8, .i32⟩
  | .hbm, ⟨31, _⟩ => ⟨S512x256x8, .i32⟩
  | .hbm, ⟨32, _⟩ => ⟨S512x256x8, .i32⟩
  | .hbm, ⟨33, _⟩ => ⟨S_, .i32⟩
  | .hbm, ⟨34, _⟩ => ⟨S512x256x8, .i32⟩
  | .hbm, ⟨35, _⟩ => ⟨S512x256x8, .i32⟩
  | .hbm, ⟨36, _⟩ => ⟨S512x256x8, .f32⟩
  | .hbm, ⟨37, _⟩ => ⟨S512x2048, .f32⟩
  | .hbm, ⟨38, _⟩ => ⟨S512x2048, .bf16⟩
  | .hbm, ⟨39, _⟩ => ⟨S512x8192, .bf16⟩
  | .hbm, ⟨40, _⟩ => ⟨S512x100, .f32⟩
  | .local _ .vmem, ⟨0, _⟩ => ⟨S512x2048, .bf16⟩
  | .local _ .vmem, ⟨1, _⟩ => ⟨S1024x2048, .f32⟩
  | .local _ .vmem, ⟨2, _⟩ => ⟨S1024x2048, .f32⟩
  | .local _ .vmem, ⟨3, _⟩ => ⟨S512x1024, .bf16⟩
  | .local _ .vmem, ⟨4, _⟩ => ⟨S512x1024, .bf16⟩
  | .local _ .vmem, ⟨5, _⟩ => ⟨S256x8192, .bf16⟩
  | .local _ .vmem, ⟨6, _⟩ => ⟨S256x8192, .bf16⟩
  | .local _ .vmem, ⟨7, _⟩ => ⟨S256x8192, .f32⟩
  | .local _ .vmem, ⟨8, _⟩ => ⟨S256x8192, .f32⟩
  | .local _ .vmem, ⟨9, _⟩ => ⟨S2x256x100, .f32⟩
  | .local _ .vmem, ⟨10, _⟩ => ⟨S2x256x100, .f32⟩
  | .local _ .vmem, ⟨11, _⟩ => ⟨S256x100, .f32⟩
  | .local _ .vmem, ⟨12, _⟩ => ⟨S256x100, .f32⟩
  | .local _ .vmem, ⟨13, _⟩ => ⟨S256x100, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def k1_mult1 (i : grid1.Coords) : BitVec 32 :=
  let arg1 : BitVec 32 := BitVec.ofNat 32 (i 1).val
  let c256_i32 : BitVec 32 := 256#32
  let v14 : BitVec 32 := Scalar.muli arg1 c256_i32
  v14
def k1_off1 (i : grid1.Coords) : Fin 2 → Nat :=
  let c0_5 : Index := 0#32
  let arg1 : BitVec 32 := BitVec.ofNat 32 (i 1).val
  let c256_i32 : BitVec 32 := 256#32
  let v14 : BitVec 32 := Scalar.muli arg1 c256_i32
  let v15 : BitVec 32 := v14
  let v16 : Index := Scalar.indexCast v15
  ![0, v16.toNat]
def k1_cond2 (i : grid1.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_15 : BitVec 32 := 0#32
  let v35 : BitVec 1 := Scalar.cmpi .ne v34 c0_i32_15
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x256x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  natLt_1_32 : 1 < 32
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  transposes_S256x8192_p1_0_S8192x256 : S256x8192.Transposes [1, 0] S8192x256
  inb_S256x100_S256x100_0_0 : ∀ a, (![0, 0] : Fin 2 → Nat) a + S256x100.size a ≤ S256x100.size a
  h_S256x100 : 0 < S256x100.numel
  shapeCasts_S256x100_S256x100 : S256x100.ShapeCasts S256x100
  h_S256x256 : 0 < S256x256.numel
  shapeCasts_S256x256_S256x256 : S256x256.ShapeCasts S256x256
  inb_S2x256x100_S2x256x100_0_0_0 : ∀ a, (![0, 0, 0] : Fin 3 → Nat) a + S2x256x100.size a ≤ S2x256x100.size a
  h_S2x256x100 : 0 < S2x256x100.numel
  slices_S2x256x100_o0_0_0_S1x256x100 : S2x256x100.Slices ![0, 0, 0] S1x256x100
  shapeCasts_S1x256x100_S256x100 : S1x256x100.ShapeCasts S256x100
  slices_S2x256x100_o1_0_0_S1x256x100 : S2x256x100.Slices ![1, 0, 0] S1x256x100
  dot_S512x2048_S2048x1024_S512x1024_1_0_0_1_n_n_wf : DotDims.WF S512x2048 S2048x1024 S512x1024 [1] [0] [0] [1] [] []
  dot_S256x8192_S8192x256_S256x256_1_0_0_1_n_n_wf : DotDims.WF S256x8192 S8192x256 S256x256 [1] [0] [0] [1] [] []
  dot_S256x256_S256x100_S256x100_1_0_0_1_n_n_wf : DotDims.WF S256x256 S256x100 S256x100 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .f32 = 32 ∨ (Rect.block (s := S8192x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x8192.size a
  hwx0_2 : ∀ i : grid0.Coords, EltTy.bits .bf16 = 32 ∨ (Rect.block (s := S512x8192) S512x1024.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S256x256.size a ≤ S256x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S512x8192.size a
  hwx1_0 : ∀ i : grid1.Coords, EltTy.bits .bf16 = 32 ∨ (Rect.block (s := S512x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x256x100.size a ≤ S2x8192x100.size a
  hwx1_2 : ∀ i : grid1.Coords, EltTy.bits .f32 = 32 ∨ (Rect.block (s := S2x8192x100) S2x256x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x100.size a ≤ S512x100.size a
  hwx1_3 : ∀ i : grid1.Coords, EltTy.bits .f32 = 32 ∨ (Rect.block (s := S512x100) S256x100.size (cc1_transform_3 i) (hinb1_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x100_S256x100_1_0_0_1_n_n : DotDims S256x256 S256x100 S256x100 where
  lhsContracting := [1]
  rhsContracting := [0]
  lhsNonContracting := [0]
  rhsNonContracting := [1]
  lhsBatch := []
  rhsBatch := []
  wf := dot_S256x256_S256x100_S256x100_1_0_0_1_n_n_wf

abbrev win0_0 : Pipeline.Window sig grid0 :=
  Pipeline.Window.ofSpec (Memref.whole main_v22) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x256x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S256x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x256 : Shape := ⟨2, ![512, 256]⟩
abbrev S8192x2048 : Shape := ⟨2, ![8192, 2048]⟩
abbrev S8192x8192 : Shape := ⟨2, ![8192, 8192]⟩
abbrev S2x8192x100 : Shape := ⟨3, ![2, 8192, 100]⟩
abbrev S_ : Shape := ⟨0, ![]⟩
abbrev S512x256x1 : Shape := ⟨3, ![512, 256, 1]⟩
abbrev S8 : Shape := ⟨1, ![8]⟩
abbrev S1x1x8 : Shape := ⟨3, ![1, 1, 8]⟩
abbrev S512x256x8 : Shape := ⟨3, ![512, 256, 8]⟩
abbrev S512x2048 : Shape := ⟨2, ![512, 2048]⟩
abbrev S2048x8192 : Shape := ⟨2, ![2048, 8192]⟩
abbrev S512x8192 : Shape := ⟨2, ![512, 8192]⟩
abbrev S1x8192x100 : Shape := ⟨3, ![1, 8192, 100]⟩
abbrev S8192x100 : Shape := ⟨2, ![8192, 100]⟩
abbrev S512x100 : Shape := ⟨2, ![512, 100]⟩

abbrev nBuf : Space → Nat
  | .hbm => 57
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S8192x2048, .f32⟩
  | .hbm, ⟨2, _⟩ => ⟨S8192x8192, .f32⟩
  | .hbm, ⟨3, _⟩ => ⟨S2x8192x100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .i32⟩
  | .hbm, ⟨23, _⟩ => ⟨S_, .i32⟩
  | .hbm, ⟨24, _⟩ => ⟨S512x256, .i32⟩
  | .hbm, ⟨25, _⟩ => ⟨S512x256, .i32⟩
  | .hbm, ⟨26, _⟩ => ⟨S512x256, .i32⟩
  | .hbm, ⟨27, _⟩ => ⟨S512x256x1, .i32⟩
  | .hbm, ⟨28, _⟩ => ⟨S8, .i32⟩
  | .hbm, ⟨29, _⟩ => ⟨S1x1x8, .i32⟩
  | .hbm, ⟨30, _⟩ => ⟨S512x256x8, .i32⟩
  | .hbm, ⟨31, _⟩ => ⟨S512x256x8, .i32⟩
  | .hbm, ⟨32, _⟩ => ⟨S512x256x8, .i32⟩
  | .hbm, ⟨33, _⟩ => ⟨S_, .i32⟩
  | .hbm, ⟨34, _⟩ => ⟨S512x256x8, .i32⟩
  | .hbm, ⟨35, _⟩ => ⟨S512x256x8, .i32⟩
  | .hbm, ⟨36, _⟩ => ⟨S512x256x8, .f32⟩
  | .hbm, ⟨37, _⟩ => ⟨S512x2048, .f32⟩
  | .hbm, ⟨38, _⟩ => ⟨S2048x8192, .f32⟩
  | .hbm, ⟨39, _⟩ => ⟨S512x8192, .f32⟩
  | .hbm, ⟨40, _⟩ => ⟨S_, .f32⟩
  | .hbm, ⟨41, _⟩ => ⟨S512x8192, .f32⟩
  | .hbm, ⟨42, _⟩ => ⟨S512x8192, .i1⟩
  | .hbm, ⟨43, _⟩ => ⟨S512x8192, .f32⟩
  | .hbm, ⟨44, _⟩ => ⟨S8192x8192, .f32⟩
  | .hbm, ⟨45, _⟩ => ⟨S512x8192, .f32⟩
  | .hbm, ⟨46, _⟩ => ⟨S_, .f32⟩
  | .hbm, ⟨47, _⟩ => ⟨S512x8192, .f32⟩
  | .hbm, ⟨48, _⟩ => ⟨S512x8192, .i1⟩
  | .hbm, ⟨49, _⟩ => ⟨S512x8192, .f32⟩
  | .hbm, ⟨50, _⟩ => ⟨S1x8192x100, .f32⟩
  | .hbm, ⟨51, _⟩ => ⟨S8192x100, .f32⟩
  | .hbm, ⟨52, _⟩ => ⟨S512x100, .f32⟩
  | .hbm, ⟨53, _⟩ => ⟨S1x8192x100, .f32⟩
  | .hbm, ⟨54, _⟩ => ⟨S8192x100, .f32⟩
  | .hbm, ⟨55, _⟩ => ⟨S512x100, .f32⟩
  | .hbm, ⟨56, _⟩ => ⟨S512x100, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  transposes_S8192x2048_S2048x8192_1_0 : S8192x2048.Transposes [1, 0] S2048x8192
  bcast_S_S512x8192 : S_.BroadcastsInDim S512x8192 (![] : Fin 0 → Fin S512x8192.rank)
  transposes_S8192x8192_S8192x8192_1_0 : S8192x8192.Transposes [1, 0] S8192x8192
  slices_S2x8192x100_S1x8192x100_0_0_0 : S2x8192x100.Slices ![0, 0, 0] S1x8192x100
  shapeCasts_S1x8192x100_S8192x100 : S1x8192x100.ShapeCasts S8192x100
  slices_S2x8192x100_S1x8192x100_1_0_0 : S2x8192x100.Slices ![1, 0, 0] S1x8192x100
  dot_S512x2048_S2048x8192_S512x8192_1_0_0_1_n_n_wf : DotDims.WF S512x2048 S2048x8192 S512x8192 [1] [0] [0] [1] [] []
  dot_S512x8192_S8192x8192_S512x8192_1_0_0_1_n_n_wf : DotDims.WF S512x8192 S8192x8192 S512x8192 [1] [0] [0] [1] [] []
  dot_S512x8192_S8192x100_S512x100_1_0_0_1_n_n_wf : DotDims.WF S512x8192 S8192x100 S512x100 [1] [0] [0] [1] [] []

variable [Facts₀]

def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S512x8192_S8192x8192_S512x8192_1_0_0_1_n_n : DotDims S512x8192 S8192x8192 S512x8192 where
  lhsContracting := [1]
  rhsContracting := [0]
  lhsNonContracting := [0]
  rhsNonContracting := [1]
  lhsBatch := []
  rhsBatch := []
  wf := dot_S512x8192_S8192x8192_S512x8192_1_0_0_1_n_n_wf
def dot_S512x8192_S8192x100_S512x100_1_0_0_1_n_n : DotDims S512x8192 S8192x100 S512x100 where
  lhsContracting := [1]
  rhsContracting := [0]
  lhsNonContracting := [0]
  rhsNonContracting := [1]
  lhsBatch := []
  rhsBatch := []
  wf := dot_S512x8192_S8192x100_S512x100_1_0_0_1_n_n_wf

class Facts : Prop extends Facts₀ where

variable [Facts]
-- ==== Proof.KBody0.lean ====
/-
  The first pallas_call (the layer-0 threshold layer) on one core, at any float instance: what its body leaves in the
  output window's staging buffer at a grid point, as a function of the two input blocks; the body's triple; the
  pipeline's proof data at a parameter `V` (the buffers' contents when the region is entered); the body obligation.
  The body loads the activation block (the whole [512, 2048] array at every point) and a [1024, 2048] block of weight
  rows, and stores one [512, 1024] block of thresholded products.
-/
import proofs.«103449_j83605833384667_2_alg».proof.Proof.Gen.Kernel.Launch
import proofs.«103449_j83605833384667_2_alg».proof.Proof.Gen.Kernel.Skeleton
import proofs.«103449_j83605833384667_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S512x2048 := Rect.unit (s := S512x2048) ![0, 0] S512x2048.size inb_S512x2048_S512x2048_0_0
abbrev r0_1 : Rect S1024x2048 := Rect.unit (s := S1024x2048) ![0, 0] S1024x2048.size inb_S1024x2048_S1024x2048_0_0
abbrev r0_2 : Rect S512x1024 := Rect.unit (s := S512x1024) ![0, 0] S512x1024.size inb_S512x1024_S512x1024_0_0

/-- The output window's staging buffer after the body: its one store, of the thresholded product of the two blocks. -/
def out0_2 (x0 : Vec F S512x2048 .bf16) (x1 : Vec F S1024x2048 .f32) : Vec F S512x1024 .bf16 :=
  View.canon [⟨r0_2, k0_pay1 (View.ld x0 r0_0) (View.ld x1 r0_1)⟩]

/-- That store covers the buffer. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

set_option maxHeartbeats 1000000 in
/-- The body on whole staging buffers, the inputs' at contents `x0`, `x1` and the output's at anything, runs to the
    continuation with the inputs' unchanged and the output's at `out0_2 x0 x1`. -/
theorem sound_kernel0 (c : Dev nD) (E : Set ℕ) (i : grid0.Coords) (arg1 : Memref sig .tc .vmem S512x2048 .bf16) (harg1 : arg1.IsWhole)
    (arg2 : Memref sig .tc .vmem S1024x2048 .f32) (harg2 : arg2.IsWhole) (arg3 : Memref sig .tc .vmem S512x1024 .bf16) (harg3 : arg3.IsWhole)
    (x0 : Vec F S512x2048 .bf16) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__layer0_kernel i arg1 harg1 arg2 harg2 arg3 harg3) K := by
  simp only [cc0__layer0_kernel_eq_skeleton]; unfold cc0__layer0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
/-
  The second pallas_call (the layer-1 threshold layer fused with the read-out) on one core, at any float instance.
  Its grid is (batch half, hidden tile) = (2, 32), row-major: position n is half n / 32, tile n % 32. The body keeps an
  accumulator of shape [256, 100] in a scratch buffer across the 32 tiles of a half: zeroed at tile 0, one step added at
  every tile, copied to the output block at tile 31. So the body has three runs, told apart by n % 32, and the
  pipeline's invariant names the accumulator's contents between two points.
-/
import proofs.«103449_j83605833384667_2_alg».proof.Proof.Gen.Kernel.Launch
import proofs.«103449_j83605833384667_2_alg».proof.Proof.Gen.Kernel.Skeleton
import proofs.«103449_j83605833384667_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

/-- The first conditional of the body (the accumulator is zeroed): the hidden-tile coordinate is 0. -/
abbrev cond1_0 (i : grid1.Coords) : Prop := (Scalar.cmpi .ne (Scalar.extui (Scalar.cmpi .eq (BitVec.ofNat 32 (i 1).val) 0#32)) 0#32) = 1#1
/-- The second (the accumulator is copied to the output block): the hidden-tile coordinate is 31. -/
abbrev cond1_1 (i : grid1.Coords) : Prop := k1_cond2 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangles the body reads and writes through: the whole activation / weight-row block, the 256 columns of the
    activation block at the hidden tile's offset, the whole read-out block, the whole accumulator / output block. -/
abbrev r1_a : Rect S256x8192 := Rect.unit (s := S256x8192) ![0, 0] S256x8192.size inb_S256x8192_S256x8192_0_0
abbrev r1_s (i : grid1.Coords) : Rect S256x8192 := Rect.unit (s := S256x8192) (k1_off1 i) S256x256.size (k1_off1_inb i)
abbrev r1_w : Rect S2x256x100 := Rect.unit (s := S2x256x100) ![0, 0, 0] S2x256x100.size inb_S2x256x100_S2x256x100_0_0_0
abbrev r1_o : Rect S256x100 := Rect.unit (s := S256x100) ![0, 0] S256x100.size inb_S256x100_S256x100_0_0

/-- One accumulation step: what the body stores into the accumulator at a point, from the three input blocks and
    the accumulator `a` it adds onto. -/
def accStep (i : grid1.Coords) (x0 : Vec F S256x8192 .bf16) (x1 : Vec F S256x8192 .f32) (x2 : Vec F S2x256x100 .f32)
    (a : Vec F S256x100 .f32) : Vec F S256x100 .f32 :=
  k1_pay2 (View.ld x0 r1_a) (View.ld x1 r1_a) (View.ld x0 (r1_s i)) (View.ld x2 r1_w) a

/-- A buffer read back after a list of stores whose LAST one covers the whole block is that store's payload. -/
theorem read_writes_top {S : Shape} {e : EltTy} (v : View sig .tc .vmem S e) {off : Fin S.rank → Nat} (h : off = fun _ => 0)
    (inb : ∀ a, off a + S.size a ≤ S.size a) (f : v.ty.Contents (Elt F)) (P : S.Idx → Elt F e)
    (L : List (View.Piece (Elt F) S e)) :
    v.read (Elt F) (v.writes (Elt F) f ((⟨Rect.unit off S.size inb, P⟩ : View.Piece (Elt F) S e) :: L)) = P := by
  subst h
  refine (View.read_writes_eq_canon v f _ (fun y => ⟨_, List.mem_cons_self, ?_⟩)).trans (View.canon_cons_unit_zero rfl _ P L)
  show y ∈ (Rect.whole S).set; rw [Rect.set_whole]; exact Finset.mem_univ y

set_option maxHeartbeats 1000000 in
/-- The first point of a row of hidden tiles: the accumulator is zeroed and takes one step from zero, the output block is left as found. -/
theorem run1_A (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : cond1_0 i) (hc1 : ¬cond1_1 i)
    (x0 : Vec F S256x8192 .bf16) (x1 : Vec F S256x8192 .f32) (x2 : Vec F S2x256x100 .f32) (xi3 : Vec F S256x100 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep i x0 x1 x2 k1_pay1)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (read_writes_top _ hz2 _ _ _ _).trans ?_
  sl_unfold_run_names
  rw [View.readCov_unit_zero _ hz2]
  rfl

set_option maxHeartbeats 1000000 in
/-- A point that is neither the first nor the last of its row of hidden tiles: the accumulator takes one step, the output block is left as found. -/
theorem run1_B (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : ¬cond1_0 i) (hc1 : ¬cond1_1 i)
    (x0 : Vec F S256x8192 .bf16) (x1 : Vec F S256x8192 .f32) (x2 : Vec F S2x256x100 .f32) (xi3 : Vec F S256x100 .f32) (xs : Vec F S256x100 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep i x0 x1 x2 xs)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (read_writes_top _ hz2 _ _ _ _).trans ?_
  unfold accStep
  simp only [View.readAt_eq_ld, View.ld_unit_zero (S := S256x100) hz2]

set_option maxHeartbeats 1000000 in
/-- The last point of a row of hidden tiles: the accumulator takes one step and is copied to the output block. -/
theorem run1_C (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : ¬cond1_0 i) (hc1 : cond1_1 i)
    (x0 : Vec F S256x8192 .bf16) (x1 : Vec F S256x8192 .f32) (x2 : Vec F S2x256x100 .f32) (xs : Vec F S256x100 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 x2 xs) ∗ owns (c : Thread nD τ) arg6 fullShare (accStep i x0 x1 x2 xs)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top _ hz2 _ _ _ _).trans ?_
    sl_unfold_run_names
    rw [View.readCov_unit_zero _ hz2]
    unfold accStep
    simp only [View.readAt_eq_ld, View.ld_unit_zero (S := S256x100) hz2]
  iexists _; isplitr
  swap; · iexact H6
  ipureintro
  sl_unfold_run_names
  refine (read_writes_top _ hz2 _ _ _ _).trans ?_
  unfold accStep
  simp only [View.readAt_eq_ld, View.ld_unit_zero (S := S256x100) hz2]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

/-- The accumulator is zeroed at the points whose hidden-tile coordinate is 0: the positions ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)
/-- The output block is stored at the points whose hidden-tile coordinate is 31: the positions ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output block, the window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, as the pipeline passes it to the body; the accumulator. -/
abbrev ms1_0 (t : Fin cfg1.N) : Memref sig .tc .vmem S256x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x100 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x100 .f32 := win1_3.stage (cfg1.slots t 3)
abbrev hs1_3 (t : Fin cfg1.N) : (ms1_3 t).IsWhole := hstage1_3 ((cfg1.slots t 3).cast nbuf1_3)
abbrev scM : Memref sig .tc .vmem S256x100 .f32 := Memref.whole cc1_scratch0

/-! ## The accumulator after each point -/

/-- What the accumulator holds after the body at position `n`: one step from zero at the first point of a row of hidden
    tiles (the positions ≡ 0 mod 32), one step from what the point before left elsewhere. -/
def accAt (c : Dev nD) : (n : ℕ) → n < cfg1.N → Vec F S256x100 .f32
  | 0, hn => accStep (grid1.coords ⟨0, hn⟩) (iblk1 V c 0 ⟨0, hn⟩) (iblk1 V c 1 ⟨0, hn⟩) (iblk1 V c 2 ⟨0, hn⟩) k1_pay1
  | n + 1, hn => accStep (grid1.coords ⟨n + 1, hn⟩) (iblk1 V c 0 ⟨n + 1, hn⟩) (iblk1 V c 1 ⟨n + 1, hn⟩) (iblk1 V c 2 ⟨n + 1, hn⟩)
      (if (n + 1) % 32 = 0 then k1_pay1 else accAt c n (Nat.lt_of_succ_lt hn))

theorem accAt_first (c : Dev nD) (t : Fin cfg1.N) (h0 : t.val % 32 = 0) :
    accAt V c t.val t.isLt = accStep (grid1.coords t) (iblk1 V c 0 t) (iblk1 V c 1 t) (iblk1 V c 2 t) k1_pay1 := by
  obtain ⟨n, hn⟩ := t
  cases n with
  | zero => rfl
  | succ n => exact congrArg (accStep _ _ _ _) (if_pos h0)

theorem accAt_next (c : Dev nD) (t : Fin cfg1.N) (h0 : ¬t.val % 32 = 0) :
    accAt V c t.val t.isLt = accStep (grid1.coords t) (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h0
  | succ n => exact congrArg (accStep _ _ _ _) (if_neg h0)

/-! ## The invariant: the scoped buffers no window stages, the accumulator among them at named contents -/

/-- The scoped buffers that are no staging buffer of this call, with the accumulator's part `S` left open. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

theorem PhiA1_eq (c : Dev nD) :
    (Pipeline.ΦA spec1 c : sProp 𝕄) = iprop(scopedWith c (iprop(∃ d, owns (c : Thread nD τ) scM fullShare d)) ∗ (∃ r, prngReg c r)) := by
  unfold Pipeline.ΦA scopedWith; rw [scopedRest1_eq]; simp only [scM, owns_whole]; try rfl

/-- The invariant before position `n`: before the first point every scoped buffer at anything; afterwards the
    accumulator at what the point before left. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM fullShare (accAt V c n hn)) ∗ (∃ r, prngReg c r)) := rfl
theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-! ## The pipeline's proof data -/

/-- The proof data of the second pipeline on core `c`: the arrays as the region finds them; after the body each input's
    buffer at its block and the output's at the accumulator's contents (consulted only where the block is stored); the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 32 says which of the
    three runs applies; the invariant hands the body the accumulator at what the point before left (at anything before
    the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [accAt_first V c t h0]
    by_cases hz : t.val = 0
    · rw [PhiS_castSucc V c t, PhiS_zero V c _ _ hz, PhiA1_eq]; unfold scopedWith
      iintro ⟨⟨⟨A1, A2, A3, A4, A5, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scopedWith
      iintro ⟨⟨⟨A1, A2, A3, A4, A5, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0, PhiS_castSucc V c t, PhiS_pos V c _ _ hz]; unfold scopedWith
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3, accAt_next V c t h0]
      iintro ⟨⟨⟨A1, A2, A3, A4, A5, HS⟩, Hg⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨A1, A2, A3, A4, A5, HS⟩, Hg⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨A1, A2, A3, A4, A5, HS⟩, Hg⟩
  isplitr [Hg]
  · isplitl [A1]; · iexact A1
    isplitl [A2]; · iexact A2
    isplitl [A3]; · iexact A3
    isplitl [A4]; · iexact A4
    isplitl [A5]; · iexact A5
    iexists _; iexact HS
  iexact Hg

end Region1

end Cert.Kernel.Hand

end
-- ==== Proof.KRun.lean ====
/-
  The whole run of @main on every core, at any float instance: five stretches of host operations (the gray-code
  encoding of the input), then the two pallas_calls. The buffers' contents at every boundary are a fold from the launch
  memory: a host stretch's operations applied in order; a pallas_call's arrays at what its write-backs leave. The run
  ends with EVERY unscoped buffer at the last boundary's contents, from which both the frame (the arguments are as
  launched) and the result array's contents are read.
-/
import proofs.«103449_j83605833384667_2_alg».proof.Proof.KBody0
import proofs.«103449_j83605833384667_2_alg».proof.Proof.KBody1
import proofs.«103449_j83605833384667_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers when the first pallas_call is entered: after the five host stretches. -/
abbrev W5 (c : Dev nD) : Valuation τ sig (Elt F) := Gen.V5 m c
/-- The same read at the TensorCore's references. -/
abbrev E5 : (c : Dev nD) → (b : Ref sig .tc) → Buf (Elt F) ((c : Thread nD τ).loc b) := fun c b => W5 m c b
/-- After the first pallas_call: its arrays at what the pipeline leaves, every other buffer as entered. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the second pallas_call. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ## The arguments end as launched -/

theorem W5_arg (c : Dev nD) (r : Ref sig .tc) (h1 : r ∉ Gen.hostOps0_W) (h2 : r ∉ Gen.hostOps0_1_W) (h3 : r ∉ Gen.hostOps0_2_W)
    (h4 : r ∉ Gen.hostOps0_3_W) (h5 : r ∉ Gen.hostOps0_4_W) : W5 m c r = m ((c : Thread nD τ).loc r) :=
  (Gen.V5_of m c r h5).trans <| (Gen.V4_of m c r h4).trans <| (Gen.V3_of m c r h3).trans <| (Gen.V2_of m c r h2).trans <| (Gen.V1_of m c r h1).trans rfl

theorem W7_main_arg0 (c : Dev nD) : W7 m c (Proc.devRef .tc main_arg0) = m ((c : Thread nD τ).loc main_arg0) :=
  (W7_of_ne m c main_arg0 (by decide)).trans <| (W6_of_ne m c main_arg0 (by decide)).trans <|
    W5_arg m c main_arg0 (by decide) (by decide) (by decide) (by decide) (by decide)
theorem W7_main_arg1 (c : Dev nD) : W7 m c (Proc.devRef .tc main_arg1) = m ((c : Thread nD τ).loc main_arg1) :=
  (W7_of_ne m c main_arg1 (by decide)).trans <| (W6_arr m c 1).trans <| ((dat0 (E5 m) c).arrAt_in 1 rfl _).trans <| (A_eq0 (E5 m) c 1).trans <|
    W5_arg m c main_arg1 (by decide) (by decide) (by decide) (by decide) (by decide)
theorem W6_main_arg2 (c : Dev nD) : W6 m c (Proc.devRef .tc main_arg2) = m ((c : Thread nD τ).loc main_arg2) :=
  (W6_of_ne m c main_arg2 (by decide)).trans <| W5_arg m c main_arg2 (by decide) (by decide) (by decide) (by decide) (by decide)
theorem W6_main_arg3 (c : Dev nD) : W6 m c (Proc.devRef .tc main_arg3) = m ((c : Thread nD τ).loc main_arg3) :=
  (W6_of_ne m c main_arg3 (by decide)).trans <| W5_arg m c main_arg3 (by decide) (by decide) (by decide) (by decide) (by decide)
theorem W7_main_arg2 (c : Dev nD) : W7 m c (Proc.devRef .tc main_arg2) = m ((c : Thread nD τ).loc main_arg2) :=
  (W7_arr m c 1).trans <| ((dat1 (E6 m) c).arrAt_in 1 rfl _).trans <| (A_eq1 (E6 m) c 1).trans <| W6_main_arg2 m c
theorem W7_main_arg3 (c : Dev nD) : W7 m c (Proc.devRef .tc main_arg3) = m ((c : Thread nD τ).loc main_arg3) :=
  (W7_arr m c 2).trans <| ((dat1 (E6 m) c).arrAt_in 2 rfl _).trans <| (A_eq1 (E6 m) c 2).trans <| W6_main_arg3 m c
/-- The result array ends at what the second pipeline's write-backs leave. -/
theorem W7_main_v24 (c : Dev nD) : W7 m c (Proc.devRef .tc main_v24) = (dat1 (E6 m) c).arrAt 3 cfg1.N := W7_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The pallas_calls as segments -/

set_option backward.isDefEq.respectTransparency.types false in
/-- The first pallas_call over the thread state: entered from every unscoped buffer at `W5`, left at `W6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W6`, left at `W7`. The
    accumulator's contents, which the invariant names between two points, are forgotten at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (pdats m 1 c).Φ 0 := hin1 (E6 m) c
    refine BIBase.Entails.trans ?_ h
    iintro ⟨Hp, -, Hr⟩
    isplitl [Hr]; · iexact Hr
    iexact Hp
  hout c := by
    rw [Pipeline.ownSems0_none]
    have h : (pdats m 1 c).Φ (Fin.last _)
        ⊢ (iprop(Pipeline.scopedRest (Ix := Unit) (Name := ℕ) (U := UR sig nD τ) (Lvl := ℕ) (Val := Elt F) spec1 c ∗ ∃ r, prngReg c r) : sProp 𝕄) := hout1 (E6 m) c
    refine BIBase.Entails.trans h ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m) ]

theorem main_run (c : Dev nD) : main (F := F) c = Pipeline.Seg.run (segs m) := by
  rw [main_chain c, Pipeline.Seg.run_eq_chain,
    show (segs m).map Pipeline.Seg.prog = [
      StableHlo.seq hostOps0, StableHlo.seq hostOps0_1, StableHlo.seq hostOps0_2, StableHlo.seq hostOps0_3, StableHlo.seq hostOps0_4,
      Prog.lift (.customCall (Pipeline.entry 0) ()), Prog.lift (.customCall (Pipeline.entry 1) ()) ] from rfl]

set_option backward.isDefEq.respectTransparency.types false in
/-- THE RUN. At the compiled mesh, from any memory with zero counters, every weakly fair execution of @main on the
    TensorCores terminates, nothing faulting, and every final state has every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Hand

end
-- ==== Proof.Body0.lean ====
/-
  The first pallas_call (the layer-0 threshold layer) on one core, at any float instance: what its body leaves in the
  output window's staging buffer at a grid point, as a function of the two input blocks; the body's triple; the
  pipeline's proof data at a parameter `V` (the buffers' contents when the region is entered); the body obligation.
  The body loads the activation block (the whole [512, 2048] array at every point) and a [1024, 2048] block of weight
  rows, and stores one [512, 1024] block of thresholded products.
-/
import proofs.«103449_j83605833384667_2_alg».proof.Proof.Gen.KernelIdeal.Launch
import proofs.«103449_j83605833384667_2_alg».proof.Proof.Gen.KernelIdeal.Skeleton
import proofs.«103449_j83605833384667_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S512x2048 := Rect.unit (s := S512x2048) ![0, 0] S512x2048.size inb_S512x2048_S512x2048_0_0
abbrev r0_1 : Rect S1024x2048 := Rect.unit (s := S1024x2048) ![0, 0] S1024x2048.size inb_S1024x2048_S1024x2048_0_0
abbrev r0_2 : Rect S512x1024 := Rect.unit (s := S512x1024) ![0, 0] S512x1024.size inb_S512x1024_S512x1024_0_0

/-- The output window's staging buffer after the body: its one store, of the thresholded product of the two blocks. -/
def out0_2 (x0 : Vec F S512x2048 .bf16) (x1 : Vec F S1024x2048 .f32) : Vec F S512x1024 .bf16 :=
  View.canon [⟨r0_2, k0_pay1 (View.ld x0 r0_0) (View.ld x1 r0_1)⟩]

/-- That store covers the buffer. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

set_option maxHeartbeats 1000000 in
/-- The body on whole staging buffers, the inputs' at contents `x0`, `x1` and the output's at anything, runs to the
    continuation with the inputs' unchanged and the output's at `out0_2 x0 x1`. -/
theorem sound_kernel0 (c : Dev nD) (E : Set ℕ) (i : grid0.Coords) (arg1 : Memref sig .tc .vmem S512x2048 .bf16) (harg1 : arg1.IsWhole)
    (arg2 : Memref sig .tc .vmem S1024x2048 .f32) (harg2 : arg2.IsWhole) (arg3 : Memref sig .tc .vmem S512x1024 .bf16) (harg3 : arg3.IsWhole)
    (x0 : Vec F S512x2048 .bf16) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__layer0_kernel i arg1 harg1 arg2 harg2 arg3 harg3) K := by
  simp only [cc0__layer0_kernel_eq_skeleton]; unfold cc0__layer0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Body1.lean ====
/-
  The second pallas_call (the layer-1 threshold layer fused with the read-out) on one core, at any float instance.
  Its grid is (batch half, hidden tile) = (2, 32), row-major: position n is half n / 32, tile n % 32. The body keeps an
  accumulator of shape [256, 100] in a scratch buffer across the 32 tiles of a half: zeroed at tile 0, one step added at
  every tile, copied to the output block at tile 31. So the body has three runs, told apart by n % 32, and the
  pipeline's invariant names the accumulator's contents between two points.
-/
import proofs.«103449_j83605833384667_2_alg».proof.Proof.Gen.KernelIdeal.Launch
import proofs.«103449_j83605833384667_2_alg».proof.Proof.Gen.KernelIdeal.Skeleton
import proofs.«103449_j83605833384667_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

/-- The first conditional of the body (the accumulator is zeroed): the hidden-tile coordinate is 0. -/
abbrev cond1_0 (i : grid1.Coords) : Prop := (Scalar.cmpi .ne (Scalar.extui (Scalar.cmpi .eq (BitVec.ofNat 32 (i 1).val) 0#32)) 0#32) = 1#1
/-- The second (the accumulator is copied to the output block): the hidden-tile coordinate is 31. -/
abbrev cond1_1 (i : grid1.Coords) : Prop := k1_cond2 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangles the body reads and writes through: the whole activation / weight-row block, the 256 columns of the
    activation block at the hidden tile's offset, the whole read-out block, the whole accumulator / output block. -/
abbrev r1_a : Rect S256x8192 := Rect.unit (s := S256x8192) ![0, 0] S256x8192.size inb_S256x8192_S256x8192_0_0
abbrev r1_s (i : grid1.Coords) : Rect S256x8192 := Rect.unit (s := S256x8192) (k1_off1 i) S256x256.size (k1_off1_inb i)
abbrev r1_w : Rect S2x256x100 := Rect.unit (s := S2x256x100) ![0, 0, 0] S2x256x100.size inb_S2x256x100_S2x256x100_0_0_0
abbrev r1_o : Rect S256x100 := Rect.unit (s := S256x100) ![0, 0] S256x100.size inb_S256x100_S256x100_0_0

/-- One accumulation step: what the body stores into the accumulator at a point, from the three input blocks and
    the accumulator `a` it adds onto. -/
def accStep (i : grid1.Coords) (x0 : Vec F S256x8192 .bf16) (x1 : Vec F S256x8192 .f32) (x2 : Vec F S2x256x100 .f32)
    (a : Vec F S256x100 .f32) : Vec F S256x100 .f32 :=
  k1_pay2 (View.ld x0 r1_a) (View.ld x1 r1_a) (View.ld x0 (r1_s i)) (View.ld x2 r1_w) a

/-- A buffer read back after a list of stores whose LAST one covers the whole block is that store's payload. -/
theorem read_writes_top {S : Shape} {e : EltTy} (v : View sig .tc .vmem S e) {off : Fin S.rank → Nat} (h : off = fun _ => 0)
    (inb : ∀ a, off a + S.size a ≤ S.size a) (f : v.ty.Contents (Elt F)) (P : S.Idx → Elt F e)
    (L : List (View.Piece (Elt F) S e)) :
    v.read (Elt F) (v.writes (Elt F) f ((⟨Rect.unit off S.size inb, P⟩ : View.Piece (Elt F) S e) :: L)) = P := by
  subst h
  refine (View.read_writes_eq_canon v f _ (fun y => ⟨_, List.mem_cons_self, ?_⟩)).trans (View.canon_cons_unit_zero rfl _ P L)
  show y ∈ (Rect.whole S).set; rw [Rect.set_whole]; exact Finset.mem_univ y

set_option maxHeartbeats 1000000 in
/-- The first point of a row of hidden tiles: the accumulator is zeroed and takes one step from zero, the output block is left as found. -/
theorem run1_A (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : cond1_0 i) (hc1 : ¬cond1_1 i)
    (x0 : Vec F S256x8192 .bf16) (x1 : Vec F S256x8192 .f32) (x2 : Vec F S2x256x100 .f32) (xi3 : Vec F S256x100 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep i x0 x1 x2 k1_pay1)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (read_writes_top _ hz2 _ _ _ _).trans ?_
  sl_unfold_run_names
  rw [View.readCov_unit_zero _ hz2]
  rfl

set_option maxHeartbeats 1000000 in
/-- A point that is neither the first nor the last of its row of hidden tiles: the accumulator takes one step, the output block is left as found. -/
theorem run1_B (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : ¬cond1_0 i) (hc1 : ¬cond1_1 i)
    (x0 : Vec F S256x8192 .bf16) (x1 : Vec F S256x8192 .f32) (x2 : Vec F S2x256x100 .f32) (xi3 : Vec F S256x100 .f32) (xs : Vec F S256x100 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep i x0 x1 x2 xs)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (read_writes_top _ hz2 _ _ _ _).trans ?_
  unfold accStep
  simp only [View.readAt_eq_ld, View.ld_unit_zero (S := S256x100) hz2]

set_option maxHeartbeats 1000000 in
/-- The last point of a row of hidden tiles: the accumulator takes one step and is copied to the output block. -/
theorem run1_C (c : Dev nD) (E : Set ℕ) (i : grid1.Coords)
    (arg2 : Memref sig .tc .vmem S256x8192 .bf16) (harg2 : arg2.IsWhole) (arg3 : Memref sig .tc .vmem S256x8192 .f32) (harg3 : arg3.IsWhole)
    (arg4 : Memref sig .tc .vmem S2x256x100 .f32) (harg4 : arg4.IsWhole) (arg5 : Memref sig .tc .vmem S256x100 .f32) (harg5 : arg5.IsWhole)
    (arg6 : Memref sig .tc .vmem S256x100 .f32) (harg6 : arg6.IsWhole) (hc0 : ¬cond1_0 i) (hc1 : cond1_1 i)
    (x0 : Vec F S256x8192 .bf16) (x1 : Vec F S256x8192 .f32) (x2 : Vec F S2x256x100 .f32) (xs : Vec F S256x100 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 x2 xs) ∗ owns (c : Thread nD τ) arg6 fullShare (accStep i x0 x1 x2 xs)) -∗ K ⟨⟩))
      ⊢ wp frame (wpE (defs₀ (F := F)) Variants.none c none) E (cc1__layer1_fused_kernel i arg2 harg2 arg3 harg3 arg4 harg4 arg5 harg5 arg6 harg6) K := by
  simp only [cc1__layer1_fused_kernel_eq_skeleton]; unfold cc1__layer1_fused_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top _ hz2 _ _ _ _).trans ?_
    sl_unfold_run_names
    rw [View.readCov_unit_zero _ hz2]
    unfold accStep
    simp only [View.readAt_eq_ld, View.ld_unit_zero (S := S256x100) hz2]
  iexists _; isplitr
  swap; · iexact H6
  ipureintro
  sl_unfold_run_names
  refine (read_writes_top _ hz2 _ _ _ _).trans ?_
  unfold accStep
  simp only [View.readAt_eq_ld, View.ld_unit_zero (S := S256x100) hz2]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

/-- The accumulator is zeroed at the points whose hidden-tile coordinate is 0: the positions ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)
/-- The output block is stored at the points whose hidden-tile coordinate is 31: the positions ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output block, the window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, as the pipeline passes it to the body; the accumulator. -/
abbrev ms1_0 (t : Fin cfg1.N) : Memref sig .tc .vmem S256x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x100 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x100 .f32 := win1_3.stage (cfg1.slots t 3)
abbrev hs1_3 (t : Fin cfg1.N) : (ms1_3 t).IsWhole := hstage1_3 ((cfg1.slots t 3).cast nbuf1_3)
abbrev scM : Memref sig .tc .vmem S256x100 .f32 := Memref.whole cc1_scratch0

/-! ## The accumulator after each point -/

/-- What the accumulator holds after the body at position `n`: one step from zero at the first point of a row of hidden
    tiles (the positions ≡ 0 mod 32), one step from what the point before left elsewhere. -/
def accAt (c : Dev nD) : (n : ℕ) → n < cfg1.N → Vec F S256x100 .f32
  | 0, hn => accStep (grid1.coords ⟨0, hn⟩) (iblk1 V c 0 ⟨0, hn⟩) (iblk1 V c 1 ⟨0, hn⟩) (iblk1 V c 2 ⟨0, hn⟩) k1_pay1
  | n + 1, hn => accStep (grid1.coords ⟨n + 1, hn⟩) (iblk1 V c 0 ⟨n + 1, hn⟩) (iblk1 V c 1 ⟨n + 1, hn⟩) (iblk1 V c 2 ⟨n + 1, hn⟩)
      (if (n + 1) % 32 = 0 then k1_pay1 else accAt c n (Nat.lt_of_succ_lt hn))

theorem accAt_first (c : Dev nD) (t : Fin cfg1.N) (h0 : t.val % 32 = 0) :
    accAt V c t.val t.isLt = accStep (grid1.coords t) (iblk1 V c 0 t) (iblk1 V c 1 t) (iblk1 V c 2 t) k1_pay1 := by
  obtain ⟨n, hn⟩ := t
  cases n with
  | zero => rfl
  | succ n => exact congrArg (accStep _ _ _ _) (if_pos h0)

theorem accAt_next (c : Dev nD) (t : Fin cfg1.N) (h0 : ¬t.val % 32 = 0) :
    accAt V c t.val t.isLt = accStep (grid1.coords t) (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h0
  | succ n => exact congrArg (accStep _ _ _ _) (if_neg h0)

/-! ## The invariant: the scoped buffers no window stages, the accumulator among them at named contents -/

/-- The scoped buffers that are no staging buffer of this call, with the accumulator's part `S` left open. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

theorem PhiA1_eq (c : Dev nD) :
    (Pipeline.ΦA spec1 c : sProp 𝕄) = iprop(scopedWith c (iprop(∃ d, owns (c : Thread nD τ) scM fullShare d)) ∗ (∃ r, prngReg c r)) := by
  unfold Pipeline.ΦA scopedWith; rw [scopedRest1_eq]; simp only [scM, owns_whole]; try rfl

/-- The invariant before position `n`: before the first point every scoped buffer at anything; afterwards the
    accumulator at what the point before left. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM fullShare (accAt V c n hn)) ∗ (∃ r, prngReg c r)) := rfl
theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-! ## The pipeline's proof data -/

/-- The proof data of the second pipeline on core `c`: the arrays as the region finds them; after the body each input's
    buffer at its block and the output's at the accumulator's contents (consulted only where the block is stored); the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 32 says which of the
    three runs applies; the invariant hands the body the accumulator at what the point before left (at anything before
    the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [accAt_first V c t h0]
    by_cases hz : t.val = 0
    · rw [PhiS_castSucc V c t, PhiS_zero V c _ _ hz, PhiA1_eq]; unfold scopedWith
      iintro ⟨⟨⟨A1, A2, A3, A4, A5, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scopedWith
      iintro ⟨⟨⟨A1, A2, A3, A4, A5, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next V c t h0, PhiS_castSucc V c t, PhiS_pos V c _ _ hz]; unfold scopedWith
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3, accAt_next V c t h0]
      iintro ⟨⟨⟨A1, A2, A3, A4, A5, HS⟩, Hg⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_0 t).mp h)) ((hcond1_1 t).mpr h1) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨A1, A2, A3, A4, A5, HS⟩, Hg⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨A1, A2, A3, A4, A5, HS⟩, Hg⟩
  isplitr [Hg]
  · isplitl [A1]; · iexact A1
    isplitl [A2]; · iexact A2
    isplitl [A3]; · iexact A3
    isplitl [A4]; · iexact A4
    isplitl [A5]; · iexact A5
    iexists _; iexact HS
  iexact Hg

end Region1

end Cert.KernelIdeal.Hand

end
-- ==== Proof.Run.lean ====
/-
  The whole run of @main on every core, at any float instance: five stretches of host operations (the gray-code
  encoding of the input), then the two pallas_calls. The buffers' contents at every boundary are a fold from the launch
  memory: a host stretch's operations applied in order; a pallas_call's arrays at what its write-backs leave. The run
  ends with EVERY unscoped buffer at the last boundary's contents, from which both the frame (the arguments are as
  launched) and the result array's contents are read.
-/
import proofs.«103449_j83605833384667_2_alg».proof.Proof.Body0
import proofs.«103449_j83605833384667_2_alg».proof.Proof.Body1
import proofs.«103449_j83605833384667_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers when the first pallas_call is entered: after the five host stretches. -/
abbrev W5 (c : Dev nD) : Valuation τ sig (Elt F) := Gen.V5 m c
/-- The same read at the TensorCore's references. -/
abbrev E5 : (c : Dev nD) → (b : Ref sig .tc) → Buf (Elt F) ((c : Thread nD τ).loc b) := fun c b => W5 m c b
/-- After the first pallas_call: its arrays at what the pipeline leaves, every other buffer as entered. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After the second pallas_call. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ## The arguments end as launched -/

theorem W5_arg (c : Dev nD) (r : Ref sig .tc) (h1 : r ∉ Gen.hostOps0_W) (h2 : r ∉ Gen.hostOps0_1_W) (h3 : r ∉ Gen.hostOps0_2_W)
    (h4 : r ∉ Gen.hostOps0_3_W) (h5 : r ∉ Gen.hostOps0_4_W) : W5 m c r = m ((c : Thread nD τ).loc r) :=
  (Gen.V5_of m c r h5).trans <| (Gen.V4_of m c r h4).trans <| (Gen.V3_of m c r h3).trans <| (Gen.V2_of m c r h2).trans <| (Gen.V1_of m c r h1).trans rfl

theorem W7_main_arg0 (c : Dev nD) : W7 m c (Proc.devRef .tc main_arg0) = m ((c : Thread nD τ).loc main_arg0) :=
  (W7_of_ne m c main_arg0 (by decide)).trans <| (W6_of_ne m c main_arg0 (by decide)).trans <|
    W5_arg m c main_arg0 (by decide) (by decide) (by decide) (by decide) (by decide)
theorem W7_main_arg1 (c : Dev nD) : W7 m c (Proc.devRef .tc main_arg1) = m ((c : Thread nD τ).loc main_arg1) :=
  (W7_of_ne m c main_arg1 (by decide)).trans <| (W6_arr m c 1).trans <| ((dat0 (E5 m) c).arrAt_in 1 rfl _).trans <| (A_eq0 (E5 m) c 1).trans <|
    W5_arg m c main_arg1 (by decide) (by decide) (by decide) (by decide) (by decide)
theorem W6_main_arg2 (c : Dev nD) : W6 m c (Proc.devRef .tc main_arg2) = m ((c : Thread nD τ).loc main_arg2) :=
  (W6_of_ne m c main_arg2 (by decide)).trans <| W5_arg m c main_arg2 (by decide) (by decide) (by decide) (by decide) (by decide)
theorem W6_main_arg3 (c : Dev nD) : W6 m c (Proc.devRef .tc main_arg3) = m ((c : Thread nD τ).loc main_arg3) :=
  (W6_of_ne m c main_arg3 (by decide)).trans <| W5_arg m c main_arg3 (by decide) (by decide) (by decide) (by decide) (by decide)
theorem W7_main_arg2 (c : Dev nD) : W7 m c (Proc.devRef .tc main_arg2) = m ((c : Thread nD τ).loc main_arg2) :=
  (W7_arr m c 1).trans <| ((dat1 (E6 m) c).arrAt_in 1 rfl _).trans <| (A_eq1 (E6 m) c 1).trans <| W6_main_arg2 m c
theorem W7_main_arg3 (c : Dev nD) : W7 m c (Proc.devRef .tc main_arg3) = m ((c : Thread nD τ).loc main_arg3) :=
  (W7_arr m c 2).trans <| ((dat1 (E6 m) c).arrAt_in 2 rfl _).trans <| (A_eq1 (E6 m) c 2).trans <| W6_main_arg3 m c
/-- The result array ends at what the second pipeline's write-backs leave. -/
theorem W7_main_v24 (c : Dev nD) : W7 m c (Proc.devRef .tc main_v24) = (dat1 (E6 m) c).arrAt 3 cfg1.N := W7_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The pallas_calls as segments -/

set_option backward.isDefEq.respectTransparency.types false in
/-- The first pallas_call over the thread state: entered from every unscoped buffer at `W5`, left at `W6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W6`, left at `W7`. The
    accumulator's contents, which the invariant names between two points, are forgotten at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (pdats m 1 c).Φ 0 := hin1 (E6 m) c
    refine BIBase.Entails.trans ?_ h
    iintro ⟨Hp, -, Hr⟩
    isplitl [Hr]; · iexact Hr
    iexact Hp
  hout c := by
    rw [Pipeline.ownSems0_none]
    have h : (pdats m 1 c).Φ (Fin.last _)
        ⊢ (iprop(Pipeline.scopedRest (Ix := Unit) (Name := ℕ) (U := UR sig nD τ) (Lvl := ℕ) (Val := Elt F) spec1 c ∗ ∃ r, prngReg c r) : sProp 𝕄) := hout1 (E6 m) c
    refine BIBase.Entails.trans h ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m) ]

theorem main_run (c : Dev nD) : main (F := F) c = Pipeline.Seg.run (segs m) := by
  rw [main_chain c, Pipeline.Seg.run_eq_chain,
    show (segs m).map Pipeline.Seg.prog = [
      StableHlo.seq hostOps0, StableHlo.seq hostOps0_1, StableHlo.seq hostOps0_2, StableHlo.seq hostOps0_3, StableHlo.seq hostOps0_4,
      Prog.lift (.customCall (Pipeline.entry 0) ()), Prog.lift (.customCall (Pipeline.entry 1) ()) ] from rfl]

set_option backward.isDefEq.respectTransparency.types false in
/-- THE RUN. At the compiled mesh, from any memory with zero counters, every weakly fair execution of @main on the
    TensorCores terminates, nothing faulting, and every final state has every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Hand

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«103449_j83605833384667_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«103449_j83605833384667_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.Spec.lean ====
/-
  What the network computes, as functions of its arrays on the extended reals, index by index.

  The encoded input `p` has shape [512, 2048] (batch × encoded features). A threshold layer with weights kept one row
  per output neuron, `w` of shape [N, K], maps activations `a` of shape [512, K] to
      layer a w (b, h) = thr (∑ k, a (b, k) · w (h, k)),        thr s = 1 if s ≥ 5 else 0.
  The read-out of the two layers' activations `a0`, `a1` ([512, 8192] each) against `wo` of shape [2, 8192, 100] is
      readout a0 a1 wo (b, c) = ∑ k, a0 (b, k) · wo (0, k, c) + ∑ k, a1 (b, k) · wo (1, k, c).
  The kernel accumulates the read-out over 32 tiles of 256 hidden units, adding at each tile the two tile sums onto a
  running total that starts at zero; `fold_two` says that total is the read-out. It uses only that addition is
  commutative and associative, so nothing has to be finite.
-/
import proofs.«103449_j83605833384667_2_alg».proof.Proof.LibChunkFold
import proofs.«103449_j83605833384667_2_alg».proof.Proof.LibPlainProduct
import Idealize.ShloMosaic.PureOps.Ideal
import Idealize.ShloMosaic.PureOps.Ideal.Laws
import Idealize.ShloMosaic.Lib.ValueIdx

noncomputable section

namespace Cert.Eisani

open Idealize.ShloMosaic Idealize.ShloMosaic.ValueIdx

/-- The threshold activation: 1 where the segment sum reaches 5 (the f32 word 0x40A00000), else 0. -/
def thr (s : Ideal .f32) : Ideal .f32 :=
  FloatOps.uitofp .f32 (FloatOps.cmpf .oge s (FloatOps.ofBits .f32 0x40A00000#32))

/-- A one-bit integer widened to 32 bits and read signed is the bit read unsigned: 0 or 1. -/
theorem sitofp_extui_bit (b : BitVec 1) :
    FloatOps.sitofp (F := Ideal) .f32 (b.setWidth 32) = FloatOps.uitofp (F := Ideal) .f32 b := by
  show ((((b.setWidth 32).toInt : ℤ) : ℝ) : EReal) = (((b.toNat : ℕ) : ℝ) : EReal)
  rcases BitVec.eq_zero_or_eq_one b with h | h <;> subst h
  · have h1 : ((0#1 : BitVec 1).setWidth 32).toInt = 0 := by decide
    have h2 : (0#1 : BitVec 1).toNat = 0 := by decide
    rw [h1, h2]; simp
  · have h1 : ((1#1 : BitVec 1).setWidth 32).toInt = 1 := by decide
    have h2 : (1#1 : BitVec 1).toNat = 1 := by decide
    rw [h1, h2]; simp

/-- A threshold layer: activations [M, K] against weights kept one row per output, [N, K]. -/
def layer {M K N : Nat} (a : (⟨2, ![M, K]⟩ : Shape).Idx → EReal) (w : (⟨2, ![N, K]⟩ : Shape).Idx → EReal) :
    (⟨2, ![M, N]⟩ : Shape).Idx → EReal :=
  fun i => thr (∑ k : Fin K, a (ix2 (i 0 : Fin M) k) * w (ix2 (i 1 : Fin N) k))

/-- The read-out of two activation arrays [M, H] against the two [H, C] halves of `wo`. -/
def readout {M H C : Nat} (a0 a1 : (⟨2, ![M, H]⟩ : Shape).Idx → EReal) (wo : (⟨3, ![2, H, C]⟩ : Shape).Idx → EReal) :
    (⟨2, ![M, C]⟩ : Shape).Idx → EReal :=
  fun i => (∑ k : Fin H, a0 (ix2 (i 0 : Fin M) k) * wo (ix3 (0 : Fin 2) k (i 1 : Fin C)))
    + (∑ k : Fin H, a1 (ix2 (i 0 : Fin M) k) * wo (ix3 (1 : Fin 2) k (i 1 : Fin C)))

/-- The whole network from the encoded input. -/
def net (p : (⟨2, ![512, 2048]⟩ : Shape).Idx → EReal) (w0 : (⟨2, ![8192, 2048]⟩ : Shape).Idx → EReal)
    (w1 : (⟨2, ![8192, 8192]⟩ : Shape).Idx → EReal) (wo : (⟨3, ![2, 8192, 100]⟩ : Shape).Idx → EReal) :
    (⟨2, ![512, 100]⟩ : Shape).Idx → EReal :=
  readout (layer p w0) (layer (layer p w0) w1) wo

/-- A running total that starts from zero plus the first chunk sums of two families and adds the next chunk sums of
    both at every step is, after the last chunk, the sum of the two whole sums. -/
theorem fold_two {M : Type*} [AddCommMonoid M] {n m N : ℕ} (h : (n + 1) * m = N) (f g : Fin N → M) (acc : ℕ → M)
    (h0 : acc 0 = 0 + ((∑ k : Fin m, f (ChunkSum.at_ h ⟨0, Nat.succ_pos n⟩ k)) + ∑ k : Fin m, g (ChunkSum.at_ h ⟨0, Nat.succ_pos n⟩ k)))
    (hs : ∀ c (hc : c + 1 < n + 1), acc (c + 1) = acc c
      + ((∑ k : Fin m, f (ChunkSum.at_ h ⟨c + 1, hc⟩ k)) + ∑ k : Fin m, g (ChunkSum.at_ h ⟨c + 1, hc⟩ k))) :
    acc n = (∑ j : Fin N, f j) + ∑ j : Fin N, g j := by
  have e := ChunkSum.fold_chunks h (fun j => f j + g j) acc (by rw [h0, Finset.sum_add_distrib])
    (fun c hc => by rw [hs c hc, Finset.sum_add_distrib])
  rw [e, Finset.sum_add_distrib]

end Cert.Eisani

end
-- ==== Proof.PayValue.lean ====
/-
  The two kernel bodies' arithmetic on the extended reals, read at one index.

  The layer-0 body stores, at (b, h) of its [512, 1024] block, thr of the sum over the 2048 encoded features of
  activation (b, e) times weight row (h, e): the weights' block is transposed before the product, so the product's
  (e, h) right factor is the block's (h, e) entry; every change of float format is the identity.
  The fused body's step adds onto the accumulator, at (b, c) of [256, 100], the sum over the tile's 256 hidden units
  of a0 (b, k) · wo (0, k, c) — a0's 256 columns sliced from the resident activation block — plus the sum of
  thr (∑ e, a0 (b, e) · w1 (k, e)) · wo (1, k, c): the layer-1 activations of the tile never leave the body.
-/
import proofs.«103449_j83605833384667_2_alg».proof.Proof.Gen.KernelIdeal.Skeleton
import proofs.«103449_j83605833384667_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Eisani Cert.Dense

/-- The body's spelling of the activation — compare with 5, widen the bit, convert, narrow the format — is `thr`. -/
theorem act_apply {S : Shape} (s : FVec Ideal S .f32) (h1 : 1 < 32) (h2 : FTy.bf16.bits < FTy.f32.bits) (j : S.Idx) :
    (truncf .bf16 (sitofp .f32 (extui 32 (cmpf .oge s (broadcast S (Scalar.ofBits .f32 0x40A00000#32))) h1)) h2 : FVec Ideal S .bf16) j
      = thr (s j) := by
  show FloatOps.sitofp (F := Ideal) .f32 ((FloatOps.cmpf (F := Ideal) .oge (s j) (Scalar.ofBits .f32 0x40A00000#32)).setWidth 32) = _
  exact sitofp_extui_bit _

/-- A block of weight rows [N, K], narrowed and transposed, as the right factor [K, N] of a product: at (e, h) the
    block's (h, e) entry. -/
theorem wT_apply {N K : Nat} (w : FVec Ideal ⟨2, ![N, K]⟩ .f32) (h2 : FTy.bf16.bits < FTy.f32.bits)
    (ht : (⟨2, ![N, K]⟩ : Shape).Transposes [1, 0] ⟨2, ![K, N]⟩) (e : Fin K) (h : Fin N) :
    (transpose ⟨2, ![K, N]⟩ [1, 0] (truncf .bf16 w h2 : FVec Ideal ⟨2, ![N, K]⟩ .bf16) ht) (ix2 e h) = w (ix2 h e) :=
  transpose_ix2_apply _ ht e h

/-- One [256, 100] half of the read-out block: the slice at `o` along the leading axis, the unit axis dropped. -/
theorem half0_apply (v19 : FVec Ideal S2x256x100 .f32) (h2 : FTy.bf16.bits < FTy.f32.bits)
    (hs : S2x256x100.Slices ![0, 0, 0] S1x256x100) (hc : S1x256x100.ShapeCasts S256x100) (k : Fin 256) (q : Fin 100) :
    (shapeCast S256x100 (extractStridedSlice S1x256x100 ![0, 0, 0] (truncf .bf16 v19 h2 : FVec Ideal S2x256x100 .bf16) hs) hc) (ix2 k q)
      = v19 (ix3 (0 : Fin 2) k q) :=
  (shapeCast_1ab_ab_apply _ hc k q).trans (extractStridedSlice_apply _ _ hs _ (ix3 (0 : Fin 2) k q) (fun a => by
    match a with
    | ⟨0, _⟩ => rfl
    | ⟨1, _⟩ => exact (Nat.zero_add _).symm
    | ⟨2, _⟩ => exact (Nat.zero_add _).symm))
theorem half1_apply (v19 : FVec Ideal S2x256x100 .f32) (h2 : FTy.bf16.bits < FTy.f32.bits)
    (hs : S2x256x100.Slices ![1, 0, 0] S1x256x100) (hc : S1x256x100.ShapeCasts S256x100) (k : Fin 256) (q : Fin 100) :
    (shapeCast S256x100 (extractStridedSlice S1x256x100 ![1, 0, 0] (truncf .bf16 v19 h2 : FVec Ideal S2x256x100 .bf16) hs) hc) (ix2 k q)
      = v19 (ix3 (1 : Fin 2) k q) :=
  (shapeCast_1ab_ab_apply _ hc k q).trans (extractStridedSlice_apply _ _ hs _ (ix3 (1 : Fin 2) k q) (fun a => by
    match a with
    | ⟨0, _⟩ => rfl
    | ⟨1, _⟩ => exact (Nat.zero_add _).symm
    | ⟨2, _⟩ => exact (Nat.zero_add _).symm))

/-- The layer-0 body's store at (b, h). -/
theorem pay0_apply (v0 : Vec Ideal S512x2048 .bf16) (v2 : Vec Ideal S1024x2048 .f32) (p : Fin 512) (q : Fin 1024) :
    k0_pay1 (F := Ideal) v0 v2 (ix2 p q) = thr (∑ e : Fin 2048, v0 (ix2 p e) * v2 (ix2 q e)) := by
  unfold k0_pay1
  simp only [shapeCast_self]
  refine (act_apply _ _ _ _).trans (congrArg thr ?_)
  refine (congrFun (matmul_zero_of_plain dot_S512x2048_S2048x1024_S512x1024_1_0_0_1_n_n rfl none _ _) (ix2 p q)).trans ?_
  exact Finset.sum_congr rfl fun e _ => congrArg (v0 (ix2 p e) * ·) (wT_apply v2 _ _ e q)

/-- The zero the accumulator is reset to. -/
theorem pay1_apply (j : S256x100.Idx) : k1_pay1 (F := Ideal) j = 0 := by
  unfold k1_pay1
  simp only [shapeCast_self]
  exact Ideal.ofBits_zero_f32

/-- The fused body's accumulator store at (b, c). -/
theorem pay2_apply (v0 : Vec Ideal S256x8192 .bf16) (v2 : Vec Ideal S256x8192 .f32) (v17 : Vec Ideal S256x256 .bf16)
    (v19 : Vec Ideal S2x256x100 .f32) (v27 : Vec Ideal S256x100 .f32) (p : Fin 256) (q : Fin 100) :
    k1_pay2 (F := Ideal) v0 v2 v17 v19 v27 (ix2 p q)
      = v27 (ix2 p q) + ((∑ k : Fin 256, v17 (ix2 p k) * v19 (ix3 (0 : Fin 2) k q))
          + ∑ k : Fin 256, thr (∑ e : Fin 8192, v0 (ix2 p e) * v2 (ix2 k e)) * v19 (ix3 (1 : Fin 2) k q)) := by
  unfold k1_pay2
  simp only [shapeCast_self]
  refine congrArg (v27 (ix2 p q) + ·) ?_
  refine congrArg₂ (· + ·) ?_ ?_
  · refine (congrFun (matmul_zero_of_plain dot_S256x256_S256x100_S256x100_1_0_0_1_n_n rfl none _ _) (ix2 p q)).trans ?_
    exact Finset.sum_congr rfl fun k _ => congrArg (v17 (ix2 p k) * ·) (half0_apply v19 _ _ _ k q)
  · refine (congrFun (matmul_zero_of_plain dot_S256x256_S256x100_S256x100_1_0_0_1_n_n rfl none _ _) (ix2 p q)).trans ?_
    refine Finset.sum_congr rfl fun k _ => congrArg₂ (· * ·) ?_ (half1_apply v19 _ _ _ k q)
    refine (act_apply _ _ _ _).trans (congrArg thr ?_)
    refine (congrFun (matmul_zero_of_plain dot_S256x8192_S8192x256_S256x256_1_0_0_1_n_n rfl none _ _) (ix2 p k)).trans ?_
    exact Finset.sum_congr rfl fun e _ => congrArg (v0 (ix2 p e) * ·) (wT_apply v2 _ _ e k)

end Cert.KernelIdeal.Val

end
-- ==== Proof.Val0.lean ====
/-
  What the first pallas_call leaves in its result array: the layer-0 activations of the whole batch.

  Grid point t (of 8) reads the whole encoded input [512, 2048] and rows 1024·t … 1024·t + 1023 of the weights, and
  writes back columns 1024·t … 1024·t + 1023 of the [512, 8192] result. The body's store at (b, h) of its block is the
  layer's value at (b, 1024·t + h); the eight blocks tile the array.
-/
import proofs.«103449_j83605833384667_2_alg».proof.Proof.Body0
import proofs.«103449_j83605833384667_2_alg».proof.Proof.PayValue

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Eisani Cert.Dense
open Cert.KernelIdeal.Hand

variable (V : (c : Dev nD) → (b : Ref sig .tc) → Buf (Elt Ideal) ((c : Thread nD τ).loc b))

theorem hzz : (![0, 0] : Fin 2 → Nat) = fun _ => 0 := funext fun a => by fin_cases a <;> rfl

/-- The three windows' block indices at point `t`: the input is never moved, the weights move down the rows and the
    result along the columns with `t`. -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The input window's block at any point is the whole encoded input. -/
theorem iblk0_0_apply (c : Dev nD) (t : Fin cfg0.N) (x : S512x2048.Idx) (k : S512x2048.Idx)
    (hk0 : (k 0).val = (x 0).val) (hk1 : (k 1).val = (x 1).val) :
    (iblk0 V c 0 t : Vec Ideal S512x2048 .bf16) x = (V c main_v22 : S512x2048.Idx → Elt Ideal .bf16) k := by
  obtain ⟨e0, e1, -, -, -, -⟩ := idx_facts0 t
  unfold iblk0
  rw [View.read_apply]
  show V c main_v22 _ = V c main_v22 _
  congr 1
  funext a
  apply Fin.ext
  match a with
  | ⟨0, _⟩ => show win0_0.index t 0 * 512 + 1 * (x 0).val = (k 0).val; rw [e0, hk0]; omega
  | ⟨1, _⟩ => show win0_0.index t 1 * 2048 + 1 * (x 1).val = (k 1).val; rw [e1, hk1]; omega

/-- The weight window's block at point `t` is rows 1024·t … of the weights. -/
theorem iblk0_1_apply (c : Dev nD) (t : Fin cfg0.N) (x : S1024x2048.Idx) (k : S8192x2048.Idx)
    (hk0 : (k 0).val = 1024 * t.val + (x 0).val) (hk1 : (k 1).val = (x 1).val) :
    (iblk0 V c 1 t : Vec Ideal S1024x2048 .f32) x = (V c main_arg1 : S8192x2048.Idx → Elt Ideal .f32) k := by
  obtain ⟨-, -, e2, e3, -, -⟩ := idx_facts0 t
  unfold iblk0
  rw [View.read_apply]
  show V c main_arg1 _ = V c main_arg1 _
  congr 1
  funext a
  apply Fin.ext
  match a with
  | ⟨0, _⟩ => show win0_1.index t 0 * 1024 + 1 * (x 0).val = (k 0).val; rw [e2, hk0]; omega
  | ⟨1, _⟩ => show win0_1.index t 1 * 2048 + 1 * (x 1).val = (k 1).val; rw [e3, hk1]; omega

/-- The layer-0 activations of the whole batch, from the buffers as the region finds them. -/
abbrev act0 (c : Dev nD) : Buf (Elt Ideal) ((c : Thread nD τ).loc main_v23) :=
  layer (V c main_v22 : S512x2048.Idx → EReal) (V c main_arg1 : S8192x2048.Idx → EReal)

/-- What point `t` writes back is block `t` of the activations. -/
theorem flushed_eq0 (c : Dev nD) (t : Fin cfg0.N) :
    (dat0 V c).flushed 2 t = ((cfg0.win 2).blk t).view.read (Elt Ideal) (act0 V c) := by
  show (cfg0.win 2).cut (grid0.coords t) ((dat0 V c).after 2 t) = _
  rw [after0_2]
  unfold out0_2
  rw [View.canon_unit_zero hzz]
  simp only [View.ld_unit_zero (S := S512x2048) hzz, View.ld_unit_zero (S := S1024x2048) hzz]
  obtain ⟨-, -, -, -, e4, e5⟩ := idx_facts0 t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (ix2 p q) = act0 V c (((cfg0.win 2).blk t).view.emb (ix2 p q))
  refine (pay0_apply _ _ p q).trans ?_
  refine congrArg thr (Finset.sum_congr rfl fun e _ => congrArg₂ (· * ·)
    (iblk0_0_apply V c t _ _ ?_ rfl) (iblk0_1_apply V c t _ _ ?_ rfl))
  · show win0_2.index t 0 * 512 + 1 * p.val = p.val; rw [e4]; omega
  · show win0_2.index t 1 * 1024 + 1 * q.val = 1024 * t.val + q.val; rw [e5]; omega

/-- An index of the result array is in point `t`'s block iff each coordinate is in the block's range. -/
theorem mem_blk0 (t : Fin cfg0.N) (i : S512x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v23).slice (win0_2.rect t)).set ↔ _
  rw [View.set_slice_whole, Rect.mem_set_unit]
  exact Iff.rfl

/-- The result array after the first pallas_call: the layer-0 activations. -/
theorem final0 (c : Dev nD) : (dat0 V c).arrAt 2 cfg0.N = act0 V c :=
  (dat0 V c).arrAt_eq_of_cover 2 (act0 V c) (fun t _ => flushed_eq0 V c t) fun i => by
    have hi0 : (i 0).val < 512 := (i 0).isLt
    have hi1 : (i 1).val < 8192 := (i 1).isLt
    have hN : cfg0.N = 8 := N_0
    refine ⟨⟨(i 1).val / 1024, by rw [hN]; omega⟩, flush0_2 _, ?_⟩
    rw [mem_blk0]
    obtain ⟨-, -, -, -, e4, e5⟩ := idx_facts0 ⟨(i 1).val / 1024, by rw [hN]; omega⟩
    intro a
    match a with
    | ⟨0, _⟩ => show win0_2.index _ 0 * 512 ≤ (i 0).val ∧ (i 0).val < win0_2.index _ 0 * 512 + 512; rw [e4]; omega
    | ⟨1, _⟩ => show win0_2.index _ 1 * 1024 ≤ (i 1).val ∧ (i 1).val < win0_2.index _ 1 * 1024 + 1024; rw [e5]; dsimp only; omega

end Cert.KernelIdeal.Val

end
-- ==== Proof.Val1.lean ====
/-
  What the second pallas_call leaves in its result array: the read-out of the two layers' activations.

  Grid position n (of 64) is batch half n / 32 and hidden tile n % 32. There the body reads rows 256·(n/32) … of the
  layer-0 activations (all 8192 columns), rows 256·(n%32) … of the layer-1 weights, and rows 256·(n%32) … of both
  halves of the read-out weights. At (b, c) of its [256, 100] accumulator it adds the tile's share of the two
  read-out sums of batch row 256·(n/32) + b: the sums over the tile's 256 hidden units. Over the 32 tiles of a half
  the accumulator runs from zero through all 8192 hidden units, so after tile 31 it holds the read-out of its 256
  batch rows (`fold_two`), and that is the block written back.
-/
import proofs.«103449_j83605833384667_2_alg».proof.Proof.Body1
import proofs.«103449_j83605833384667_2_alg».proof.Proof.PayValue

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Eisani Cert.Dense
open Cert.KernelIdeal.Hand

variable (V : (c : Dev nD) → (b : Ref sig .tc) → Buf (Elt Ideal) ((c : Thread nD τ).loc b))

/-- The four windows' block indices and the activation slice's offsets at position `t`. -/
theorem idx_facts1 : ∀ t : Fin cfg1.N, win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 3) = 0 ∧ win1_2.index t (1 : Fin 3) = t.val % 32 ∧ win1_2.index t (2 : Fin 3) = 0
    ∧ win1_3.index t (0 : Fin 2) = t.val / 32 ∧ win1_3.index t (1 : Fin 2) = 0
    ∧ k1_off1 (grid1.coords t) (0 : Fin 2) = 0 ∧ k1_off1 (grid1.coords t) (1 : Fin 2) = 256 * (t.val % 32) :=
  (by decide +kernel : ∀ t : Fin grid1.N, _)

/-- The activation window's block: rows 256·(t/32) … of the layer-0 activations. -/
theorem iblk1_0_apply (c : Dev nD) (t : Fin cfg1.N) (x : S256x8192.Idx) (k : S512x8192.Idx)
    (hk0 : (k 0).val = 256 * (t.val / 32) + (x 0).val) (hk1 : (k 1).val = (x 1).val) :
    (iblk1 V c 0 t : Vec Ideal S256x8192 .bf16) x = (V c main_v23 : S512x8192.Idx → Elt Ideal .bf16) k := by
  obtain ⟨e0, e1, -⟩ := idx_facts1 t
  unfold iblk1
  rw [View.read_apply]
  show V c main_v23 _ = V c main_v23 _
  congr 1
  funext a
  apply Fin.ext
  match a with
  | ⟨0, _⟩ => show win1_0.index t 0 * 256 + 1 * (x 0).val = (k 0).val; rw [e0, hk0]; omega
  | ⟨1, _⟩ => show win1_0.index t 1 * 8192 + 1 * (x 1).val = (k 1).val; rw [e1, hk1]; omega

/-- The layer-1 weight window's block: rows 256·(t%32) … -/
theorem iblk1_1_apply (c : Dev nD) (t : Fin cfg1.N) (x : S256x8192.Idx) (k : S8192x8192.Idx)
    (hk0 : (k 0).val = 256 * (t.val % 32) + (x 0).val) (hk1 : (k 1).val = (x 1).val) :
    (iblk1 V c 1 t : Vec Ideal S256x8192 .f32) x = (V c main_arg2 : S8192x8192.Idx → Elt Ideal .f32) k := by
  obtain ⟨-, -, e2, e3, -⟩ := idx_facts1 t
  unfold iblk1
  rw [View.read_apply]
  show V c main_arg2 _ = V c main_arg2 _
  congr 1
  funext a
  apply Fin.ext
  match a with
  | ⟨0, _⟩ => show win1_1.index t 0 * 256 + 1 * (x 0).val = (k 0).val; rw [e2, hk0]; omega
  | ⟨1, _⟩ => show win1_1.index t 1 * 8192 + 1 * (x 1).val = (k 1).val; rw [e3, hk1]; omega

/-- The read-out weight window's block: rows 256·(t%32) … of both halves. -/
theorem iblk1_2_apply (c : Dev nD) (t : Fin cfg1.N) (x : S2x256x100.Idx) (k : S2x8192x100.Idx)
    (hk0 : (k 0).val = (x 0).val) (hk1 : (k 1).val = 256 * (t.val % 32) + (x 1).val) (hk2 : (k 2).val = (x 2).val) :
    (iblk1 V c 2 t : Vec Ideal S2x256x100 .f32) x = (V c main_arg3 : S2x8192x100.Idx → Elt Ideal .f32) k := by
  obtain ⟨-, -, -, -, e4, e5, e6, -⟩ := idx_facts1 t
  unfold iblk1
  rw [View.read_apply]
  show V c main_arg3 _ = V c main_arg3 _
  congr 1
  funext a
  apply Fin.ext
  match a with
  | ⟨0, _⟩ => show win1_2.index t 0 * 2 + 1 * (x 0).val = (k 0).val; rw [e4, hk0]; omega
  | ⟨1, _⟩ => show win1_2.index t 1 * 256 + 1 * (x 1).val = (k 1).val; rw [e5, hk1]; omega
  | ⟨2, _⟩ => show win1_2.index t 2 * 100 + 1 * (x 2).val = (k 2).val; rw [e6, hk2]; omega

/-! ## One step at one index -/

/-- The three arrays the second pallas_call reads, as functions on the extended reals. -/
abbrev arrA (c : Dev nD) : S512x8192.Idx → EReal := V c main_v23
abbrev arrW1 (c : Dev nD) : S8192x8192.Idx → EReal := V c main_arg2
abbrev arrWO (c : Dev nD) : S2x8192x100.Idx → EReal := V c main_arg3

/-- The two read-out terms of batch row `r` and class `q` at hidden unit `j`. -/
def term0 (c : Dev nD) (r : Fin 512) (q : Fin 100) (j : Fin 8192) : EReal :=
  arrA V c (ix2 r j) * arrWO V c (ix3 (0 : Fin 2) j q)
def term1 (c : Dev nD) (r : Fin 512) (q : Fin 100) (j : Fin 8192) : EReal :=
  thr (∑ e : Fin 8192, arrA V c (ix2 r e) * arrW1 V c (ix2 j e)) * arrWO V c (ix3 (1 : Fin 2) j q)

theorem tiles : (31 + 1) * 256 = 8192 := by norm_num

/-- The batch row of the array that row `p` of position `t`'s blocks is. -/
def rowOf (t : Fin cfg1.N) (p : Fin 256) : Fin 512 :=
  ⟨256 * (t.val / 32) + p.val, by have := lt_of_lt_of_eq t.isLt (show cfg1.N = 64 from N_1); have := p.isLt; omega⟩
/-- The hidden tile of position `t`. -/
def tileOf (t : Fin cfg1.N) : Fin (31 + 1) := ⟨t.val % 32, Nat.mod_lt _ (by norm_num)⟩

/-- What one step adds at (p, q): the tile's share of the two read-out sums of the block's batch row. -/
theorem step_apply (c : Dev nD) (t : Fin cfg1.N) (a : Vec Ideal S256x100 .f32) (p : Fin 256) (q : Fin 100) :
    accStep (F := Ideal) (grid1.coords t) (iblk1 V c 0 t) (iblk1 V c 1 t) (iblk1 V c 2 t) a (ix2 p q)
      = a (ix2 p q) + ((∑ k : Fin 256, term0 V c (rowOf t p) q (ChunkSum.at_ tiles (tileOf t) k))
          + ∑ k : Fin 256, term1 V c (rowOf t p) q (ChunkSum.at_ tiles (tileOf t) k)) := by
  obtain ⟨-, -, -, -, -, -, -, -, -, o0, o1⟩ := idx_facts1 t
  unfold accStep
  simp only [View.ld_unit_zero (S := S256x8192) hz2, View.ld_unit_zero (S := S2x256x100) hz3]
  refine (pay2_apply _ _ _ _ _ p q).trans ?_
  refine congrArg (a (ix2 p q) + ·) (congrArg₂ (· + ·) ?_ ?_)
  · refine Finset.sum_congr rfl fun k _ => congrArg₂ (· * ·) ?_ ?_
    · show iblk1 V c 0 t ((r1_s (grid1.coords t)).idx (ix2 p k)) = _
      refine iblk1_0_apply V c t _ _ ?_ ?_
      · show 256 * (t.val / 32) + p.val = 256 * (t.val / 32) + (k1_off1 (grid1.coords t) 0 + 1 * p.val); rw [o0]; omega
      · show (tileOf t).val * 256 + k.val = k1_off1 (grid1.coords t) 1 + 1 * k.val; rw [o1]; show t.val % 32 * 256 + k.val = _; omega
    · exact iblk1_2_apply V c t _ _ rfl (by show (tileOf t).val * 256 + k.val = 256 * (t.val % 32) + k.val; show t.val % 32 * 256 + k.val = _; omega) rfl
  · refine Finset.sum_congr rfl fun k _ => congrArg₂ (· * ·) (congrArg thr ?_) ?_
    · refine Finset.sum_congr rfl fun e _ => congrArg₂ (· * ·) ?_ ?_
      · exact iblk1_0_apply V c t _ _ rfl rfl
      · exact iblk1_1_apply V c t _ _ (by show (tileOf t).val * 256 + k.val = 256 * (t.val % 32) + k.val; show t.val % 32 * 256 + k.val = _; omega) rfl
    · exact iblk1_2_apply V c t _ _ rfl (by show (tileOf t).val * 256 + k.val = 256 * (t.val % 32) + k.val; show t.val % 32 * 256 + k.val = _; omega) rfl

/-! ## The accumulator after the last tile of a half -/

theorem accAt_congr (c : Dev nD) {n n' : ℕ} (e : n = n') (h : n < cfg1.N) (h' : n' < cfg1.N) : accAt V c n h = accAt V c n' h' := by
  subst e; rfl

/-- After tile 31 of a half the accumulator holds, at (p, q), the two whole read-out sums of its batch row. -/
theorem acc_last (c : Dev nD) (t : Fin cfg1.N) (h31 : t.val % 32 = 31) (p : Fin 256) (q : Fin 100) :
    accAt V c t.val t.isLt (ix2 p q) = (∑ j : Fin 8192, term0 V c (rowOf t p) q j) + ∑ j : Fin 8192, term1 V c (rowOf t p) q j := by
  have hN : cfg1.N = 64 := N_1
  have htN : t.val < 64 := lt_of_lt_of_eq t.isLt hN
  -- the positions of this half: base, base + 1, …, base + 31 = t
  let base := t.val - 31
  have hb : ∀ s, s < 32 → base + s < cfg1.N := fun s hs => by rw [hN]; show t.val - 31 + s < 64; omega
  let acc : ℕ → EReal := fun s => if hs : s < 32 then accAt V c (base + s) (hb s hs) (ix2 p q) else 0
  have hrow : ∀ s (hs : s < 32), rowOf ⟨base + s, hb s hs⟩ p = rowOf t p := fun s hs => by
    apply Fin.ext; show 256 * ((t.val - 31 + s) / 32) + p.val = 256 * (t.val / 32) + p.val; omega
  have htile : ∀ s (hs : s < 32), tileOf ⟨base + s, hb s hs⟩ = ⟨s, hs⟩ := fun s hs => by
    apply Fin.ext; show (t.val - 31 + s) % 32 = s; omega
  have key := fold_two tiles (term0 V c (rowOf t p) q) (term1 V c (rowOf t p) q) acc
    (by
      show (if hs : 0 < 32 then accAt V c (base + 0) (hb 0 hs) (ix2 p q) else 0) = _
      rw [dif_pos (by norm_num : 0 < 32)]
      have e := accAt_first V c ⟨base + 0, hb 0 (by norm_num)⟩ (by show (t.val - 31 + 0) % 32 = 0; omega)
      rw [show accAt V c (base + 0) (hb 0 (by norm_num)) = accAt V c (⟨base + 0, hb 0 (by norm_num)⟩ : Fin cfg1.N).val (⟨base + 0, hb 0 (by norm_num)⟩ : Fin cfg1.N).isLt from rfl, e,
        step_apply V c _ _ p q, pay1_apply, hrow 0 (by norm_num), htile 0 (by norm_num)])
    (fun s hs => by
      have hs1 : s + 1 < 32 := hs
      have hs0 : s < 32 := by omega
      show (if h : s + 1 < 32 then accAt V c (base + (s + 1)) (hb (s + 1) h) (ix2 p q) else 0)
        = (if h : s < 32 then accAt V c (base + s) (hb s h) (ix2 p q) else 0) + _
      rw [dif_pos hs1, dif_pos hs0]
      have e := accAt_next V c ⟨base + (s + 1), hb (s + 1) hs1⟩ (by show ¬(t.val - 31 + (s + 1)) % 32 = 0; omega)
      rw [show accAt V c (base + (s + 1)) (hb (s + 1) hs1) = accAt V c (⟨base + (s + 1), hb (s + 1) hs1⟩ : Fin cfg1.N).val (⟨base + (s + 1), hb (s + 1) hs1⟩ : Fin cfg1.N).isLt from rfl, e,
        step_apply V c _ _ p q, hrow (s + 1) hs1, htile (s + 1) hs1]
      exact congrArg (· + _) (congrFun (accAt_congr V c (by show t.val - 31 + (s + 1) - 1 = t.val - 31 + s; omega) _ _) (ix2 p q)))
  rw [← key]
  show _ = (if hs : 31 < 32 then accAt V c (base + 31) (hb 31 hs) (ix2 p q) else 0)
  rw [dif_pos (by norm_num : 31 < 32)]
  exact congrFun (accAt_congr V c (by show t.val = t.val - 31 + 31; omega) _ _) (ix2 p q)

/-! ## The result array -/

/-- The read-out of the whole batch, from the buffers as the region finds them. -/
abbrev out1 (c : Dev nD) : Buf (Elt Ideal) ((c : Thread nD τ).loc main_v24) :=
  readout (arrA V c) (layer (arrA V c) (arrW1 V c)) (arrWO V c)

/-- What a position writing back (tile 31 of a half) writes is its block of the read-out. -/
theorem flushed_eq1 (c : Dev nD) (t : Fin cfg1.N) (hf : (cfg1.win 3).flush t = true) :
    (dat1 V c).flushed 3 t = ((cfg1.win 3).blk t).view.read (Elt Ideal) (out1 V c) := by
  have h31 : t.val % 32 = 31 := (flush1_3 t).mp hf
  obtain ⟨-, -, -, -, -, -, -, e7, e8, -, -⟩ := idx_facts1 t
  show (cfg1.win 3).cut (grid1.coords t) ((dat1 V c).after 3 t) = _
  rw [after1_3]
  funext j
  obtain ⟨p, q, rfl⟩ : ∃ (p : Fin 256) (q : Fin 100), j = ix2 p q := ⟨j 0, j 1, eq_ix2 j⟩
  show accAt V c t.val t.isLt (ix2 p q) = out1 V c (((cfg1.win 3).blk t).view.emb (ix2 p q))
  rw [acc_last V c t h31 p q]
  have hI0 : ((((cfg1.win 3).blk t).view.emb (ix2 p q)) 0 : Fin 512) = rowOf t p := by
    apply Fin.ext; show win1_3.index t 0 * 256 + 1 * p.val = 256 * (t.val / 32) + p.val; rw [e7]; omega
  have hI1 : ((((cfg1.win 3).blk t).view.emb (ix2 p q)) 1 : Fin 100) = q := by
    apply Fin.ext; show win1_3.index t 1 * 100 + 1 * q.val = q.val; rw [e8]; omega
  show _ = readout (arrA V c) (layer (arrA V c) (arrW1 V c)) (arrWO V c) (((cfg1.win 3).blk t).view.emb (ix2 p q))
  unfold readout
  rw [hI0, hI1]
  rfl

theorem mem_blk1 (t : Fin cfg1.N) (i : S512x100.Idx) :
    i ∈ ((cfg1.win 3).blk t).view.set ↔ ∀ a : Fin 2, win1_3.index t a * S256x100.size a ≤ (i a).val ∧ (i a).val < win1_3.index t a * S256x100.size a + S256x100.size a := by
  show i ∈ ((View.whole main_v24).slice (win1_3.rect t)).set ↔ _
  rw [View.set_slice_whole, Rect.mem_set_unit]
  exact Iff.rfl

/-- The result array after the second pallas_call: the read-out. -/
theorem final1 (c : Dev nD) : (dat1 V c).arrAt 3 cfg1.N = out1 V c :=
  (dat1 V c).arrAt_eq_of_cover 3 (out1 V c) (fun t hf => flushed_eq1 V c t hf) fun i => by
    have hi0 : (i 0).val < 512 := (i 0).isLt
    have hi1 : (i 1).val < 100 := (i 1).isLt
    have hN : cfg1.N = 64 := N_1
    have ht : 32 * ((i 0).val / 256) + 31 < cfg1.N := by rw [hN]; omega
    refine ⟨⟨32 * ((i 0).val / 256) + 31, ht⟩, (flush1_3 _).mpr (by show (32 * ((i 0).val / 256) + 31) % 32 = 31; omega), ?_⟩
    rw [mem_blk1]
    obtain ⟨-, -, -, -, -, -, -, e7, e8, -, -⟩ := idx_facts1 ⟨32 * ((i 0).val / 256) + 31, ht⟩
    intro a
    match a with
    | ⟨0, _⟩ => show win1_3.index _ 0 * 256 ≤ (i 0).val ∧ (i 0).val < win1_3.index _ 0 * 256 + 256; rw [e7]; dsimp only; omega
    | ⟨1, _⟩ => show win1_3.index _ 1 * 100 ≤ (i 1).val ∧ (i 1).val < win1_3.index _ 1 * 100 + 100; rw [e8]; omega

end Cert.KernelIdeal.Val

end
-- ==== Proof.Prefix.lean ====
/-
  The kernel's program and the reference encode the input by the same host operations: clip to [0, 1], scale by 255,
  round to nearest even, convert to an integer, take the gray code (the value xor its half), spread its 8 bits along a
  new axis, convert each bit to a float, and flatten to [512, 2048]. The kernel's program then narrows the float
  format, which changes nothing on the extended reals. So the array the first pallas_call reads as its activations
  is the reference's encoded input of the same argument.
-/
import proofs.«103449_j83605833384667_2_alg».proof.Proof.Gen.KernelIdeal.Regions
import proofs.«103449_j83605833384667_2_alg».proof.Proof.Gen.ReferenceIdeal.Read
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

set_option maxHeartbeats 2000000 in
/-- The encoded input the first pallas_call reads is the reference's, of the same argument array. -/
theorem prev_eq (m : (ℓ : Loc nD τ sig) → Buf (Elt Ideal) ℓ) (c : Dev nD) :
    (Gen.V5 m c (Proc.devRef .tc main_v22) : S512x2048.Idx → EReal)
      = Cert.ReferenceIdeal.Read.val_main_v21 (F := Ideal) (m ((c : Thread nD τ).loc main_arg0)) := by
  show StableHlo.after hostOps0_4 (StableHlo.after hostOps0_3 (StableHlo.after hostOps0_2 (StableHlo.after hostOps0_1
    (StableHlo.after hostOps0 (fun b => m (c, b)))))) (Proc.devRef .tc main_v22) = _
  rw [← StableHlo.after_append, ← StableHlo.after_append, ← StableHlo.after_append, ← StableHlo.after_append]
  simp only [hostOps0, hostOps0_1, hostOps0_2, hostOps0_3, hostOps0_4, List.cons_append, List.nil_append]
  after_results
  rfl

end Cert.KernelIdeal.Val

end
-- ==== Proof.RefValue.lean ====
/-
  The reference's result, stage by stage, is the network of the specification applied to its own encoded input:
  each `dot_general` contracts the left operand's columns against the rows of a transposed weight array, which is the
  layer's sum over a weight ROW; `compare GE 5` then `convert` is thr; the two slices of the read-out weights, their
  unit axis dropped, are its two halves.
-/
import proofs.«103449_j83605833384667_2_alg».proof.Proof.Gen.ReferenceIdeal.Read
import proofs.«103449_j83605833384667_2_alg».proof.Proof.Spec

noncomputable section

namespace Cert.ReferenceIdeal.RefValue

open Idealize.ShloMosaic Idealize.ShloMosaic.ValueIdx Cert.ReferenceIdeal Cert.ReferenceIdeal.Read Cert.Eisani

variable (x0 : (⟨S512x256, .f32⟩ : BufTy).Contents (Elt Ideal)) (x1 : (⟨S8192x2048, .f32⟩ : BufTy).Contents (Elt Ideal))
  (x2 : (⟨S8192x8192, .f32⟩ : BufTy).Contents (Elt Ideal)) (x3 : (⟨S2x8192x100, .f32⟩ : BufTy).Contents (Elt Ideal))

/-- The layer-0 activations. -/
theorem a0_eq : val_main_v26 (F := Ideal) x0 x1 = layer (val_main_v21 (F := Ideal) x0 : S512x2048.Idx → EReal) (x1 : S8192x2048.Idx → EReal) := by
  funext i
  have h1 : val_main_v26 (F := Ideal) x0 x1 i = thr (val_main_v23 (F := Ideal) x0 x1 i) := by
    rw [val_main_v26_apply, val_main_v25_apply, val_main_v24_apply, val_main_cst_5_apply]; rfl
  rw [h1, val_main_v23_apply]
  refine congrArg thr (Finset.sum_congr rfl fun k _ => congrArg₂ (· * ·) ?_ ?_)
  · exact congrArg _ (funext fun a => Fin.ext (by match a with | ⟨0, _⟩ => rfl | ⟨1, _⟩ => rfl))
  · rw [val_main_v22_apply]
    exact congrArg x1 (funext fun a => Fin.ext (by match a with | ⟨0, _⟩ => rfl | ⟨1, _⟩ => rfl))

/-- The layer-1 activations. -/
theorem a1_eq : val_main_v31 (F := Ideal) x0 x1 x2 = layer (val_main_v26 (F := Ideal) x0 x1 : S512x8192.Idx → EReal) (x2 : S8192x8192.Idx → EReal) := by
  funext i
  have h1 : val_main_v31 (F := Ideal) x0 x1 x2 i = thr (val_main_v28 (F := Ideal) x0 x1 x2 i) := by
    rw [val_main_v31_apply, val_main_v30_apply, val_main_v29_apply, val_main_cst_6_apply]; rfl
  rw [h1, val_main_v28_apply]
  refine congrArg thr (Finset.sum_congr rfl fun k _ => congrArg₂ (· * ·) ?_ ?_)
  · exact congrArg _ (funext fun a => Fin.ext (by match a with | ⟨0, _⟩ => rfl | ⟨1, _⟩ => rfl))
  · rw [val_main_v27_apply]
    exact congrArg x2 (funext fun a => Fin.ext (by match a with | ⟨0, _⟩ => rfl | ⟨1, _⟩ => rfl))

/-- The first half of the read-out weights at (k, q). -/
theorem half0 (k : Fin 8192) (q : Fin 100) : val_main_v33 (F := Ideal) x3 (ix2 k q) = x3 (ix3 (0 : Fin 2) k q) := by
  rw [val_main_v33_apply, val_main_v32_apply]
  refine congrArg x3 (funext fun a => Fin.ext ?_)
  have hk := k.isLt
  have hq := q.isLt
  match a with
  | ⟨0, _⟩ => rfl
  | ⟨1, _⟩ => show (k.val * 100 + q.val) / 100 % 8192 = k.val; omega
  | ⟨2, _⟩ => show (k.val * 100 + q.val) % 100 = q.val; omega

/-- The second half. -/
theorem half1 (k : Fin 8192) (q : Fin 100) : val_main_v36 (F := Ideal) x3 (ix2 k q) = x3 (ix3 (1 : Fin 2) k q) := by
  rw [val_main_v36_apply, val_main_v35_apply]
  refine congrArg x3 (funext fun a => Fin.ext ?_)
  have hk := k.isLt
  have hq := q.isLt
  match a with
  | ⟨0, _⟩ => rfl
  | ⟨1, _⟩ => show (k.val * 100 + q.val) / 100 % 8192 = k.val; omega
  | ⟨2, _⟩ => show (k.val * 100 + q.val) % 100 = q.val; omega

/-- The reference's result is the network applied to its encoded input. -/
theorem result_eq : val_main_v38 (F := Ideal) x0 x1 x2 x3
    = net (val_main_v21 (F := Ideal) x0 : S512x2048.Idx → EReal) (x1 : S8192x2048.Idx → EReal) (x2 : S8192x8192.Idx → EReal) (x3 : S2x8192x100.Idx → EReal) := by
  unfold net
  rw [← a0_eq x0 x1, ← a1_eq x0 x1 x2]
  funext i
  rw [val_main_v38_apply, val_main_v34_apply, val_main_v37_apply]
  refine congrArg₂ (· + ·) (Finset.sum_congr rfl fun k _ => congrArg₂ (· * ·) ?_ ?_) (Finset.sum_congr rfl fun k _ => congrArg₂ (· * ·) ?_ ?_)
  · exact congrArg _ (funext fun a => Fin.ext (by match a with | ⟨0, _⟩ => rfl | ⟨1, _⟩ => rfl))
  · exact (congrArg _ (funext fun a => Fin.ext (by match a with | ⟨0, _⟩ => rfl | ⟨1, _⟩ => rfl))).trans (half0 x3 k (i 1))
  · exact congrArg _ (funext fun a => Fin.ext (by match a with | ⟨0, _⟩ => rfl | ⟨1, _⟩ => rfl))
  · exact (congrArg _ (funext fun a => Fin.ext (by match a with | ⟨0, _⟩ => rfl | ⟨1, _⟩ => rfl))).trans (half1 x3 k (i 1))

end Cert.ReferenceIdeal.RefValue

end
-- ==== Proof.lean ====
/-
  The certificate: a gray-code encoder, two threshold layers and a linear read-out, computed by two pallas_calls
  against a plain jnp reference.

  Frames. The kernel's program, at the word level and on the extended reals alike, runs its five host stretches and
  its two pallas_calls to the end and leaves every unscoped buffer at a known fold of the launch memory; no host
  operation writes an argument and each pallas_call either stages an argument as an input window or does not touch
  it. The reference is a straight line of host operations.

  Values on the extended reals. The first pallas_call leaves the layer-0 activations thr (∑ e, p (b, e) · w0 (h, e))
  in its [512, 8192] result, eight column blocks of 1024; the second accumulates, for each half of the batch, the
  read-out ∑ k, a0 (b, k) · wo (0, k, c) + ∑ k, a1 (b, k) · wo (1, k, c) over 32 tiles of 256 hidden units, a1 being
  computed tile by tile from the resident a0 block and never leaving the body. The reference computes the same two
  sums whole. The two agree because a sum over 8192 indices is the sum of its 32 chunk sums and addition on the
  extended reals is commutative and associative; no entry has to be finite, so the precondition is never opened.
-/
import proofs.«103449_j83605833384667_2_alg».proof.Defs
import proofs.«103449_j83605833384667_2_alg».proof.Proof.Gen.Kernel
import proofs.«103449_j83605833384667_2_alg».proof.Proof.Gen.KernelIdeal
import proofs.«103449_j83605833384667_2_alg».proof.Proof.Gen.ReferenceIdeal
import proofs.«103449_j83605833384667_2_alg».proof.Proof.Gen.Pre_finite_inputs
import proofs.«103449_j83605833384667_2_alg».proof.Proof.Gen.ReferenceIdeal.Run
import proofs.«103449_j83605833384667_2_alg».proof.Proof.Gen.ReferenceIdeal.Read
import proofs.«103449_j83605833384667_2_alg».proof.Proof.KRun
import proofs.«103449_j83605833384667_2_alg».proof.Proof.Run
import proofs.«103449_j83605833384667_2_alg».proof.Proof.Val0
import proofs.«103449_j83605833384667_2_alg».proof.Proof.Val1
import proofs.«103449_j83605833384667_2_alg».proof.Proof.Prefix
import proofs.«103449_j83605833384667_2_alg».proof.Proof.RefValue
import Idealize.ShloMosaic.Adequacy
import Idealize.ShloMosaic.Init

noncomputable section

namespace Cert.Proof

open Idealize.ShloMosaic Idealize.ShloMosaic.TcCoe Idealize.SL.Sem Cert.Eisani
open Cert.KernelIdeal Cert.KernelIdeal.Hand Cert.KernelIdeal.Val

/-- The read-out of equal arrays is equal. -/
theorem readout_congr {a a' : (⟨2, ![512, 8192]⟩ : Shape).Idx → EReal} {b b' : (⟨2, ![8192, 8192]⟩ : Shape).Idx → EReal}
    {w w' : (⟨3, ![2, 8192, 100]⟩ : Shape).Idx → EReal} (ha : a = a') (hb : b = b') (hw : w = w') :
    readout a (layer a b) w = readout a' (layer a' b') w' := by
  subst ha hb hw; rfl

/-- The kernel's result array after the run: the network of the specification applied to the reference's encoding of
    the first argument and to the three weight arguments. -/
theorem kernel_value (m : (ℓ : Loc nD τ sig) → Buf (Elt Ideal) ℓ) (c : Dev nD) :
    (W7 m c (Proc.devRef .tc main_v24) : S512x100.Idx → EReal)
      = net (Cert.ReferenceIdeal.Read.val_main_v21 (F := Ideal) (m ((c : Thread nD τ).loc main_arg0)))
          (m ((c : Thread nD τ).loc main_arg1)) (m ((c : Thread nD τ).loc main_arg2)) (m ((c : Thread nD τ).loc main_arg3)) := by
  have h0 : (E6 m c main_v23 : S512x8192.Idx → EReal)
      = layer (Cert.ReferenceIdeal.Read.val_main_v21 (F := Ideal) (m ((c : Thread nD τ).loc main_arg0)) : S512x2048.Idx → EReal)
          (m ((c : Thread nD τ).loc main_arg1) : S8192x2048.Idx → EReal) :=
    (W6_arr m c 2).trans ((final0 (E5 m) c).trans (congrArg₂ layer (prev_eq m c)
      (W5_arg m c main_arg1 (by decide) (by decide) (by decide) (by decide) (by decide))))
  have h2 : (E6 m c main_arg2 : S8192x8192.Idx → EReal) = m ((c : Thread nD τ).loc main_arg2) := W6_main_arg2 m c
  have h3 : (E6 m c main_arg3 : S2x8192x100.Idx → EReal) = m ((c : Thread nD τ).loc main_arg3) := W6_main_arg3 m c
  exact (W7_main_v24 m c).trans ((final1 (E6 m) c).trans (readout_congr h0 h2 h3))

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network's value of the arguments. -/
theorem algebraic : Cert.algebraic_KernelIdeal_ReferenceIdeal := by
  intro m ρ m' ρ' _ hagree
  refine ⟨fun c => net (Cert.ReferenceIdeal.Read.val_main_v21 (F := Ideal) (m ((c : Thread nD τ).loc main_arg0)))
      (m ((c : Thread nD τ).loc main_arg1)) (m ((c : Thread nD τ).loc main_arg2)) (m ((c : Thread nD τ).loc main_arg3)), ?_, ?_⟩
  · refine (θ_run Cert.KernelIdeal.defs _ _).mono (fun r h c => ⟨?_, ?_, ?_, ?_, ?_⟩) (run_all m ρ)
    · exact (h c _ (mem_uc main_v24 (by decide))).trans (kernel_value m c)
    · exact (h c _ (mem_uc main_arg0 (by decide))).trans (W7_main_arg0 m c)
    · exact (h c _ (mem_uc main_arg1 (by decide))).trans (W7_main_arg1 m c)
    · exact (h c _ (mem_uc main_arg2 (by decide))).trans (W7_main_arg2 m c)
    · exact (h c _ (mem_uc main_arg3 (by decide))).trans (W7_main_arg3 m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v38_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
